-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x768 : Shape := ⟨3, ![64, 512, 768]⟩
abbrev S64x512 : Shape := ⟨2, ![64, 512]⟩
abbrev S_ : Shape := ⟨0, ![]⟩

class Facts : Prop where
  bcast_S_S64x512x768 : S_.BroadcastsInDim S64x512x768 (![] : Fin 0 → Fin S64x512x768.rank)
  reducesTo_S64x512x768_S_d0_1_2 : S64x512x768.ReducesTo [0, 1, 2] S_
  h_S_ : 0 < S_.numel

variable [Facts]

def fn {F : FTy → Type} [FloatOps F] (main_arg0 : FVec F S64x512x768 .f32) (main_arg1 : IVec S64x512 32) (main_arg2 : FVec F S64x512x768 .f32) (main_arg3 : IVec S64x512 32) : IVec S_ 1 :=
  let main_v0 : FVec F S64x512x768 .f32 := Host.absf main_arg0
  let main_cst : FVec F S_ .f32 := constant S_ .f32 0x7F800000#32
  let main_v1 : FVec F S64x512x768 .f32 := broadcastInDim S64x512x768 ![] bcast_S_S64x512x768 main_cst
  let main_v2 : IVec S64x512x768 1 := cmpf .olt main_v0 main_v1
  let main_c : IVec S_ 1 := constantI S_ 1 1#1
  let main_v3 : IVec S_ 1 := (fun x v => Host.reduce IntOp.andi x v reducesTo_S64x512x768_S_d0_1_2 h_S_) main_v2 main_c
  let main_v4 : FVec F S64x512x768 .f32 := Host.absf main_arg2
  let main_cst_0 : FVec F S_ .f32 := constant S_ .f32 0x7F800000#32
  let main_v5 : FVec F S64x512x768 .f32 := broadcastInDim S64x512x768 ![] bcast_S_S64x512x768 main_cst_0
  let main_v6 : IVec S64x512x768 1 := cmpf .olt main_v4 main_v5
  let main_c_1 : IVec S_ 1 := constantI S_ 1 1#1
  let main_v7 : IVec S_ 1 := (fun x v => Host.reduce IntOp.andi x v reducesTo_S64x512x768_S_d0_1_2 h_S_) main_v6 main_c_1
  let main_v8 : IVec S_ 1 := andi main_v3 main_v7
  main_v8
-- ==== Kernel.lean ====
abbrev S64x512x768 : Shape := ⟨3, ![64, 512, 768]⟩
abbrev S64x512 : Shape := ⟨2, ![64, 512]⟩
abbrev S64x512x1 : Shape := ⟨3, ![64, 512, 1]⟩
abbrev S64x1x512 : Shape := ⟨3, ![64, 1, 512]⟩
abbrev S64x512x3072 : Shape := ⟨3, ![64, 512, 3072]⟩
abbrev S1x512x768 : Shape := ⟨3, ![1, 512, 768]⟩
abbrev S1x512x1 : Shape := ⟨3, ![1, 512, 1]⟩
abbrev S1x1x512 : Shape := ⟨3, ![1, 1, 512]⟩
abbrev S1x512x3072 : Shape := ⟨3, ![1, 512, 3072]⟩
abbrev S512x768 : Shape := ⟨2, ![512, 768]⟩
abbrev S512x512 : Shape := ⟨2, ![512, 512]⟩
abbrev S512x1 : Shape := ⟨2, ![512, 1]⟩
abbrev S1x512 : Shape := ⟨2, ![1, 512]⟩
abbrev S512 : Shape := ⟨1, ![512]⟩

abbrev nBuf : Space → Nat
  | .hbm => 8
  | .vmem => 12
  | .smem => 0
  | _ => 0

abbrev bufTy : (tb : Table) → Fin (tcTables nBuf tb) → BufTy
  | .hbm, ⟨0, _⟩ => ⟨S64x512x768, .f32⟩
  | .hbm, ⟨1, _⟩ => ⟨S64x512, .i32⟩
  | .hbm, ⟨2, _⟩ => ⟨S64x512x768, .f32⟩
  | .hbm, ⟨3, _⟩ => ⟨S64x512, .i32⟩
  | .hbm, ⟨4, _⟩ => ⟨S64x512x1, .i32⟩
  | .hbm, ⟨5, _⟩ => ⟨S64x1x512, .i32⟩
  | .hbm, ⟨6, _⟩ => ⟨S64x512x3072, .f32⟩
  | .hbm, ⟨7, _⟩ => ⟨S64x512x3072, .f32⟩
  | .local _ .vmem, ⟨0, _⟩ => ⟨S1x512x768, .f32⟩
  | .local _ .vmem, ⟨1, _⟩ => ⟨S1x512x768, .f32⟩
  | .local _ .vmem, ⟨2, _⟩ => ⟨S1x512x768, .f32⟩
  | .local _ .vmem, ⟨3, _⟩ => ⟨S1x512x768, .f32⟩
  | .local _ .vmem, ⟨4, _⟩ => ⟨S1x512x1, .i32⟩
  | .local _ .vmem, ⟨5, _⟩ => ⟨S1x512x1, .i32⟩
  | .local _ .vmem, ⟨6, _⟩ => ⟨S1x1x512, .i32⟩
  | .local _ .vmem, ⟨7, _⟩ => ⟨S1x1x512, .i32⟩
  | .local _ .vmem, ⟨8, _⟩ => ⟨S1x512x3072, .f32⟩
  | .local _ .vmem, ⟨9, _⟩ => ⟨S1x512x3072, .f32⟩
  | .local _ .vmem, ⟨10, _⟩ => ⟨S1x512x3072, .f32⟩
  | .local _ .vmem, ⟨11, _⟩ => ⟨S1x512x3072, .f32⟩
  | _, _ => ⟨S64x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64x512_S64x512x1 : S64x512.ShapeCasts S64x512x1
  shapeCasts_S64x512_S64x1x512 : S64x512.ShapeCasts S64x1x512
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  bitsLt_bf16_f32 : FTy.bits .bf16 < FTy.bits .f32
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  reduces_S512x512_S512_2 : S512x512.Reduces [0] S512
  shapeCasts_S512_S1x512 : S512.ShapeCasts S1x512
  inb_S1x512x3072_S1x512x768_0_0_0 : ∀ a, (![0, 0, 0] : Fin 3 → Nat) a + S1x512x768.size a ≤ S1x512x3072.size a
  shapeCasts_S512x768_S1x512x768 : S512x768.ShapeCasts S1x512x768
  inb_S1x512x3072_S1x512x768_0_0_768 : ∀ a, (![0, 0, 768] : Fin 3 → Nat) a + S1x512x768.size a ≤ S1x512x3072.size a
  inb_S1x512x3072_S1x512x768_0_0_1536 : ∀ a, (![0, 0, 1536] : Fin 3 → Nat) a + S1x512x768.size a ≤ S1x512x3072.size a
  inb_S1x512x3072_S1x512x768_0_0_2304 : ∀ a, (![0, 0, 2304] : Fin 3 → Nat) a + S1x512x768.size a ≤ S1x512x3072.size a
  dot_S512x768_S512x768_S512x512_1_1_0_0_n_n_wf : DotDims.WF S512x768 S512x768 S512x512 [1] [1] [0] [0] [] []
  dot_S512x512_S512x768_S512x768_1_0_0_1_n_n_wf : DotDims.WF S512x512 S512x768 S512x768 [1] [0] [0] [1] [] []
  dot_S512x512_S512x768_S512x768_0_0_1_1_n_n_wf : DotDims.WF S512x512 S512x768 S512x768 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S64x512x768.size a
  hwx0_0 : ∀ i : grid0.Coords, EltTy.bits .f32 = 32 ∨ (Rect.block (s := S64x512x768) S1x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x768.size a ≤ S64x512x768.size a
  hwx0_1 : ∀ i : grid0.Coords, EltTy.bits .f32 = 32 ∨ (Rect.block (s := S64x512x768) S1x512x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S64x512x1.size a
  hwx0_2 : ∀ i : grid0.Coords, EltTy.bits .i32 = 32 ∨ (Rect.block (s := S64x512x1) S1x512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S64x1x512.size a
  hwx0_3 : ∀ i : grid0.Coords, EltTy.bits .i32 = 32 ∨ (Rect.block (s := S64x1x512) S1x1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x3072.size a ≤ S64x512x3072.size a
  hwx0_4 : ∀ i : grid0.Coords, EltTy.bits .f32 = 32 ∨ (Rect.block (s := S64x512x3072) S1x512x3072.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x3072.size a ≤ S64x512x3072.size a
  hwx0_5 : ∀ i : grid0.Coords, EltTy.bits .f32 = 32 ∨ (Rect.block (s := S64x512x3072) S1x512x3072.size (cc0_transform_5 i) (hinb0_5 i)).WholeWords (EltTy.packing .f32)

variable [Facts₀]

def dot_S512x768_S512x768_S512x512_1_1_0_0_n_n : DotDims S512x768 S512x768 S512x512 where
  lhsContracting := [1]
  rhsContracting := [1]
  lhsNonContracting := [0]
  rhsNonContracting := [0]
  lhsBatch := []
  rhsBatch := []
  wf := dot_S512x768_S512x768_S512x512_1_1_0_0_n_n_wf
def dot_S512x512_S512x768_S512x768_1_0_0_1_n_n : DotDims S512x512 S512x768 S512x768 where
  lhsContracting := [1]
  rhsContracting := [0]
  lhsNonContracting := [0]
  rhsNonContracting := [1]
  lhsBatch := []
  rhsBatch := []
  wf := dot_S512x512_S512x768_S512x768_1_0_0_1_n_n_wf
def dot_S512x512_S512x768_S512x768_0_0_1_1_n_n : DotDims S512x512 S512x768 S512x768 where
  lhsContracting := [0]
  rhsContracting := [0]
  lhsNonContracting := [1]
  rhsNonContracting := [1]
  lhsBatch := []
  rhsBatch := []
  wf := dot_S512x512_S512x768_S512x768_0_0_1_1_n_n_wf

abbrev win0_0 : Pipeline.Window sig grid0 :=
  Pipeline.Window.ofSpec (Memref.whole main_arg0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x512x3072.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x512x3072.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x512x768 : Shape := ⟨3, ![64, 512, 768]⟩
abbrev S64x512 : Shape := ⟨2, ![64, 512]⟩
abbrev S64x512x512 : Shape := ⟨3, ![64, 512, 512]⟩
abbrev S64x512x1 : Shape := ⟨3, ![64, 512, 1]⟩
abbrev S64x1x512 : Shape := ⟨3, ![64, 1, 512]⟩
abbrev S_ : Shape := ⟨0, ![]⟩
abbrev S64x512x3072 : Shape := ⟨3, ![64, 512, 3072]⟩

abbrev nBuf : Space → Nat
  | .hbm => 55
  | .vmem => 0
  | .smem => 0
  | _ => 0

abbrev bufTy : (tb : Table) → Fin (tcTables nBuf tb) → BufTy
  | .hbm, ⟨0, _⟩ => ⟨S64x512x768, .f32⟩
  | .hbm, ⟨1, _⟩ => ⟨S64x512, .i32⟩
  | .hbm, ⟨2, _⟩ => ⟨S64x512x768, .f32⟩
  | .hbm, ⟨3, _⟩ => ⟨S64x512, .i32⟩
  | .hbm, ⟨4, _⟩ => ⟨S64x512x512, .f32⟩
  | .hbm, ⟨5, _⟩ => ⟨S64x512x1, .i32⟩
  | .hbm, ⟨6, _⟩ => ⟨S64x512x1, .f32⟩
  | .hbm, ⟨7, _⟩ => ⟨S64x1x512, .i32⟩
  | .hbm, ⟨8, _⟩ => ⟨S64x1x512, .f32⟩
  | .hbm, ⟨9, _⟩ => ⟨S64x512x512, .f32⟩
  | .hbm, ⟨10, _⟩ => ⟨S64x512x512, .f32⟩
  | .hbm, ⟨11, _⟩ => ⟨S64x512x512, .f32⟩
  | .hbm, ⟨12, _⟩ => ⟨S_, .f32⟩
  | .hbm, ⟨13, _⟩ => ⟨S64x512x512, .f32⟩
  | .hbm, ⟨14, _⟩ => ⟨S64x512x512, .i1⟩
  | .hbm, ⟨15, _⟩ => ⟨S_, .f32⟩
  | .hbm, ⟨16, _⟩ => ⟨S_, .f32⟩
  | .hbm, ⟨17, _⟩ => ⟨S64x512x512, .f32⟩
  | .hbm, ⟨18, _⟩ => ⟨S64x512x512, .f32⟩
  | .hbm, ⟨19, _⟩ => ⟨S_, .f32⟩
  | .hbm, ⟨20, _⟩ => ⟨S64x512, .f32⟩
  | .hbm, ⟨21, _⟩ => ⟨S_, .f32⟩
  | .hbm, ⟨22, _⟩ => ⟨S64x512, .f32⟩
  | .hbm, ⟨23, _⟩ => ⟨S64x512, .f32⟩
  | .hbm, ⟨24, _⟩ => ⟨S64x512x1, .f32⟩
  | .hbm, ⟨25, _⟩ => ⟨S64x512x512, .f32⟩
  | .hbm, ⟨26, _⟩ => ⟨S64x512x512, .f32⟩
  | .hbm, ⟨27, _⟩ => ⟨S64x512x512, .f32⟩
  | .hbm, ⟨28, _⟩ => ⟨S_, .f32⟩
  | .hbm, ⟨29, _⟩ => ⟨S64x512, .f32⟩
  | .hbm, ⟨30, _⟩ => ⟨S64x512x1, .f32⟩
  | .hbm, ⟨31, _⟩ => ⟨S64x512x512, .f32⟩
  | .hbm, ⟨32, _⟩ => ⟨S64x512x512, .f32⟩
  | .hbm, ⟨33, _⟩ => ⟨S64x512x768, .f32⟩
  | .hbm, ⟨34, _⟩ => ⟨S_, .f32⟩
  | .hbm, ⟨35, _⟩ => ⟨S64x512, .f32⟩
  | .hbm, ⟨36, _⟩ => ⟨S_, .f32⟩
  | .hbm, ⟨37, _⟩ => ⟨S64x512, .f32⟩
  | .hbm, ⟨38, _⟩ => ⟨S64x512, .f32⟩
  | .hbm, ⟨39, _⟩ => ⟨S64x1x512, .f32⟩
  | .hbm, ⟨40, _⟩ => ⟨S64x512x512, .f32⟩
  | .hbm, ⟨41, _⟩ => ⟨S64x512x512, .f32⟩
  | .hbm, ⟨42, _⟩ => ⟨S64x512x512, .f32⟩
  | .hbm, ⟨43, _⟩ => ⟨S_, .f32⟩
  | .hbm, ⟨44, _⟩ => ⟨S64x512, .f32⟩
  | .hbm, ⟨45, _⟩ => ⟨S64x1x512, .f32⟩
  | .hbm, ⟨46, _⟩ => ⟨S64x512x512, .f32⟩
  | .hbm, ⟨47, _⟩ => ⟨S64x512x512, .f32⟩
  | .hbm, ⟨48, _⟩ => ⟨S64x512x768, .f32⟩
  | .hbm, ⟨49, _⟩ => ⟨S64x512x768, .f32⟩
  | .hbm, ⟨50, _⟩ => ⟨S64x512x768, .f32⟩
  | .hbm, ⟨51, _⟩ => ⟨S64x512x3072, .f32⟩
  | .hbm, ⟨52, _⟩ => ⟨S64x512x768, .f32⟩
  | .hbm, ⟨53, _⟩ => ⟨S64x512x768, .f32⟩
  | .hbm, ⟨54, _⟩ => ⟨S64x512x3072, .f32⟩
  | _, _ => ⟨S64x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]

class Facts₀ : Prop where
  bcast_S64x512_S64x512x1_0_1 : S64x512.BroadcastsInDim S64x512x1 (![0, 1] : Fin 2 → Fin S64x512x1.rank)
  bcast_S64x512_S64x1x512_0_2 : S64x512.BroadcastsInDim S64x1x512 (![0, 2] : Fin 2 → Fin S64x1x512.rank)
  bcast_S64x512x1_S64x512x512_0_1_2 : S64x512x1.BroadcastsInDim S64x512x512 (![0, 1, 2] : Fin 3 → Fin S64x512x512.rank)
  bcast_S64x1x512_S64x512x512_0_1_2 : S64x1x512.BroadcastsInDim S64x512x512 (![0, 1, 2] : Fin 3 → Fin S64x512x512.rank)
  bcast_S_S64x512x512 : S_.BroadcastsInDim S64x512x512 (![] : Fin 0 → Fin S64x512x512.rank)
  reducesTo_S64x512x512_S64x512_d2 : S64x512x512.ReducesTo [2] S64x512
  h_S_ : 0 < S_.numel
  bcast_S_S64x512 : S_.BroadcastsInDim S64x512 (![] : Fin 0 → Fin S64x512.rank)
  reducesTo_S64x512x512_S64x512_d1 : S64x512x512.ReducesTo [1] S64x512
  concatenates_S64x512x768_S64x512x768_S64x512x768_S64x512x768_S64x512x3072_d2 : Shape.Concatenates [S64x512x768, S64x512x768, S64x512x768, S64x512x768] S64x512x3072 2
  dot_S64x512x768_S64x512x768_S64x512x512_2_2_1_1_0_0_wf : DotDims.WF S64x512x768 S64x512x768 S64x512x512 [2] [2] [1] [1] [0] [0]
  dot_S64x512x512_S64x512x768_S64x512x768_2_1_1_2_0_0_wf : DotDims.WF S64x512x512 S64x512x768 S64x512x768 [2] [1] [1] [2] [0] [0]
  dot_S64x512x512_S64x512x768_S64x512x768_1_1_2_2_0_0_wf : DotDims.WF S64x512x512 S64x512x768 S64x512x768 [1] [1] [2] [2] [0] [0]

variable [Facts₀]

def dot_S64x512x768_S64x512x768_S64x512x512_2_2_1_1_0_0 : DotDims S64x512x768 S64x512x768 S64x512x512 where
  lhsContracting := [2]
  rhsContracting := [2]
  lhsNonContracting := [1]
  rhsNonContracting := [1]
  lhsBatch := [0]
  rhsBatch := [0]
  wf := dot_S64x512x768_S64x512x768_S64x512x512_2_2_1_1_0_0_wf
def dot_S64x512x512_S64x512x768_S64x512x768_2_1_1_2_0_0 : DotDims S64x512x512 S64x512x768 S64x512x768 where
  lhsContracting := [2]
  rhsContracting := [1]
  lhsNonContracting := [1]
  rhsNonContracting := [2]
  lhsBatch := [0]
  rhsBatch := [0]
  wf := dot_S64x512x512_S64x512x768_S64x512x768_2_1_1_2_0_0_wf
def dot_S64x512x512_S64x512x768_S64x512x768_1_1_2_2_0_0 : DotDims S64x512x512 S64x512x768 S64x512x768 where
  lhsContracting := [1]
  rhsContracting := [1]
  lhsNonContracting := [2]
  rhsNonContracting := [2]
  lhsBatch := [0]
  rhsBatch := [0]
  wf := dot_S64x512x512_S64x512x768_S64x512x768_1_1_2_2_0_0_wf

class Facts : Prop extends Facts₀ where

variable [Facts]
-- ==== Proof.Spec.lean ====
/-
  Soft alignment of two sequences, one batch element at a time, on the extended reals.

  Two sequences of 512 rows of 768 features, A and B, each with an integer mask over its rows. The score of a pair
  (i, j) is the inner product of row i of A with row j of B, replaced by the constant -100000 where the product of the
  two masks (read as numbers) is below 1/2. Each row i of the score matrix is turned into weights over j by the
  exponential of the score minus the row's largest score, divided by the row's sum of those exponentials; each column j
  likewise into weights over i. The row weights average the rows of B (the context of A), the column weights average the
  rows of A (the context of B). The result for a sequence X with context T is, feature block by feature block of 768,
  X, T, X - T and X · T side by side: 3072 features per row.
-/
import Idealize.ShloMosaic.PureOps.Ideal
import Idealize.ShloMosaic.Lib.ValueIdx

noncomputable section

open scoped BigOperators

namespace Cert.SoftAlign

open Idealize.ShloMosaic Idealize.ShloMosaic.ValueIdx

/-- The lowest extended real, as the float word for minus infinity denotes it: where a largest score starts. -/
abbrev floor : EReal := Ideal.ofBits .f32 0xFF800000#32

section OneBatchElement

variable (A B : Fin 512 → Fin 768 → EReal) (mA mB : Fin 512 → BitVec 32)

/-- The masked score of the pair (i, j). -/
def score (i j : Fin 512) : EReal :=
  Scalar.select
    (Ideal.cmp .olt ((FloatOps.sitofp (F := Ideal) .f32 (mA i) : EReal) * (FloatOps.sitofp (F := Ideal) .f32 (mB j) : EReal))
      (Ideal.ofBits .f32 0x3F000000#32))
    (Ideal.ofBits .f32 0xC7C35000#32) (∑ d : Fin 768, A i d * B j d)

/-- The largest score of row i. -/
def rowTop (i : Fin 512) : EReal := (Finset.univ : Finset (Fin 512)).fold max floor (fun j => score A B mA mB i j)
/-- The unnormalised weight of j for row i. -/
def rowW (i j : Fin 512) : EReal := Ideal.exp (score A B mA mB i j - rowTop A B mA mB i)
/-- The weight of j for row i. -/
def rowP (i j : Fin 512) : EReal := Ideal.div (rowW A B mA mB i j) (∑ j' : Fin 512, rowW A B mA mB i j')
/-- The context of row i of A: the rows of B averaged by row i's weights. -/
def ctxA (i : Fin 512) (d : Fin 768) : EReal := ∑ j : Fin 512, rowP A B mA mB i j * B j d

/-- The largest score of column j. -/
def colTop (j : Fin 512) : EReal := (Finset.univ : Finset (Fin 512)).fold max floor (fun i => score A B mA mB i j)
/-- The unnormalised weight of i for column j. -/
def colW (i j : Fin 512) : EReal := Ideal.exp (score A B mA mB i j - colTop A B mA mB j)
/-- The sum of column j's unnormalised weights. -/
def colZ (j : Fin 512) : EReal := ∑ i' : Fin 512, colW A B mA mB i' j
/-- The weight of i for column j. -/
def colP (i j : Fin 512) : EReal := Ideal.div (colW A B mA mB i j) (colZ A B mA mB j)
/-- The context of row j of B: the rows of A averaged by column j's weights. -/
def ctxB (j : Fin 512) (d : Fin 768) : EReal := ∑ i : Fin 512, colP A B mA mB i j * A i d

end OneBatchElement

/-- A sequence X beside its context T: the four feature blocks X, T, X - T, X · T of a row. -/
def enhance (X T : Fin 512 → Fin 768 → EReal) (i : Fin 512) (c : Fin 3072) : EReal :=
  if h0 : c.val < 768 then X i ⟨c.val, h0⟩
  else if h1 : c.val < 1536 then T i ⟨c.val - 768, by omega⟩
  else if h2 : c.val < 2304 then X i ⟨c.val - 1536, by omega⟩ - T i ⟨c.val - 1536, by omega⟩
  else X i ⟨c.val - 2304, by omega⟩ * T i ⟨c.val - 2304, by omega⟩

/-- Feature c of row i' is feature d of block 0, 1, 2 or 3 of row i when i' is i and c is d moved by the block's offset. -/
theorem enhance_block0 (X T : Fin 512 → Fin 768 → EReal) (i i' : Fin 512) (d : Fin 768) (c : Fin 3072)
    (hi : i'.val = 0 + 1 * i.val) (hc : c.val = 0 + 1 * d.val) : enhance X T i' c = X i d := by
  obtain rfl : i' = i := Fin.ext (by omega)
  unfold enhance
  have hd := d.isLt
  rw [dif_pos (by omega)]
  exact congrArg (X i') (Fin.ext (by show c.val = d.val; omega))

theorem enhance_block1 (X T : Fin 512 → Fin 768 → EReal) (i i' : Fin 512) (d : Fin 768) (c : Fin 3072)
    (hi : i'.val = 0 + 1 * i.val) (hc : c.val = 768 + 1 * d.val) : enhance X T i' c = T i d := by
  obtain rfl : i' = i := Fin.ext (by omega)
  unfold enhance
  have hd := d.isLt
  rw [dif_neg (by omega), dif_pos (by omega)]
  exact congrArg (T i') (Fin.ext (by show c.val - 768 = d.val; omega))

theorem enhance_block2 (X T : Fin 512 → Fin 768 → EReal) (i i' : Fin 512) (d : Fin 768) (c : Fin 3072)
    (hi : i'.val = 0 + 1 * i.val) (hc : c.val = 1536 + 1 * d.val) : enhance X T i' c = X i d - T i d := by
  obtain rfl : i' = i := Fin.ext (by omega)
  unfold enhance
  have hd := d.isLt
  rw [dif_neg (by omega), dif_neg (by omega), dif_pos (by omega)]
  have e : (⟨c.val - 1536, by omega⟩ : Fin 768) = d := Fin.ext (by show c.val - 1536 = d.val; omega)
  rw [e]

theorem enhance_block3 (X T : Fin 512 → Fin 768 → EReal) (i i' : Fin 512) (d : Fin 768) (c : Fin 3072)
    (hi : i'.val = 0 + 1 * i.val) (hc : c.val = 2304 + 1 * d.val) : enhance X T i' c = X i d * T i d := by
  obtain rfl : i' = i := Fin.ext (by omega)
  unfold enhance
  have hd := d.isLt
  rw [dif_neg (by omega), dif_neg (by omega), dif_neg (by omega)]
  have e : (⟨c.val - 2304, by omega⟩ : Fin 768) = d := Fin.ext (by show c.val - 2304 = d.val; omega)
  rw [e]

/-- The first result, one batch element: A beside its context. -/
def outA (A B : Fin 512 → Fin 768 → EReal) (mA mB : Fin 512 → BitVec 32) : Fin 512 → Fin 3072 → EReal :=
  enhance A (ctxA A B mA mB)
/-- The second result, one batch element: B beside its context. -/
def outB (A B : Fin 512 → Fin 768 → EReal) (mA mB : Fin 512 → BitVec 32) : Fin 512 → Fin 3072 → EReal :=
  enhance B (ctxB A B mA mB)

/-! ## The whole arrays: 64 batch elements -/

/-- Batch element n of a [64, 512, 768] array, as rows. -/
def rows (x : (⟨3, ![64, 512, 768]⟩ : Shape).Idx → EReal) (n : Fin 64) : Fin 512 → Fin 768 → EReal := fun i d => x (ix3 n i d)
/-- Batch element n of a [64, 512] mask. -/
def maskRow (k : (⟨2, ![64, 512]⟩ : Shape).Idx → BitVec 32) (n : Fin 64) : Fin 512 → BitVec 32 := fun i => k (ix2 n i)

/-- The first result array. -/
def resultA (a b : (⟨3, ![64, 512, 768]⟩ : Shape).Idx → EReal) (ka kb : (⟨2, ![64, 512]⟩ : Shape).Idx → BitVec 32) :
    (⟨3, ![64, 512, 3072]⟩ : Shape).Idx → EReal :=
  fun y => outA (rows a (y 0)) (rows b (y 0)) (maskRow ka (y 0)) (maskRow kb (y 0)) (y 1) (y 2)
/-- The second result array. -/
def resultB (a b : (⟨3, ![64, 512, 768]⟩ : Shape).Idx → EReal) (ka kb : (⟨2, ![64, 512]⟩ : Shape).Idx → BitVec 32) :
    (⟨3, ![64, 512, 3072]⟩ : Shape).Idx → EReal :=
  fun y => outB (rows a (y 0)) (rows b (y 0)) (maskRow ka (y 0)) (maskRow kb (y 0)) (y 1) (y 2)

end Cert.SoftAlign

end
-- ==== Proof.LibKeepdims.lean ====
/-
  A column kept after a row reduction, read at an index given by coordinates.

  A sum over the last axis of an [a, b] array with the reduced axis KEPT is an [a] vector viewed as an [a, 1] column
  and then broadcast along the second axis. Two layout facts say what such a column reads:
  • an [a] vector cast to [a, 1] reads, at (p, 0), the vector at p (the two row-major positions coincide);
  • an [a, 1] column broadcast to [a, b] reads, at (p, c), the column at (p, 0), whatever c.
  Beside them: the index a one-axis reduction inserts its summed coordinate into, for a reduction of an [a, b]
  array over its last axis — the reduced index (p) with coordinate k inserted is (p, k).
-/
import Idealize.ShloMosaic.Lib.Pipeline.Value
import Idealize.ShloMosaic.Lib.ValueIdx
import Idealize.ShloMosaic.PureOps.Reduce

namespace Cert.Rbf.Keepdims

open Idealize.ShloMosaic Idealize.ShloMosaic.ValueIdx

variable {α : Type}

/-- An `[a]` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Rbf.Keepdims
-- ==== Proof.KernelScore.lean ====
/-
  The kernel's body, one grid point: the masked score matrix of the point's blocks.

  The body loads one batch element's block of each sequence ([1, 512, 768]) and of each mask ([1, 512, 1] and
  [1, 1, 512]), multiplies the first block by the transpose of the second on the matrix unit into a zero accumulator —
  at the exact values the inner products of their rows, the narrowing to bf16 being the identity there —, spreads the
  first mask along the columns and the second along the rows, and writes -100000 where their product is below 1/2.
  Read at (i, j) this is the masked score of rows i and j of the two blocks.
-/
import proofs.«137245_j2740189134870_2_alg».proof.Proof.Gen.KernelIdeal.Skeleton
import proofs.«137245_j2740189134870_2_alg».proof.Proof.Spec
import proofs.«137245_j2740189134870_2_alg».proof.Proof.LibKeepdims
import Idealize.ShloMosaic.Lib.ValueLayout
import Idealize.ShloMosaic.Lib.ValueIdx
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.SoftAlign

/-- The rows of a loaded [1, 512, 768] block. -/
def blkRows (v : Vec Ideal S1x512x768 .f32) : Fin 512 → Fin 768 → EReal := fun i d => v (ix3 (0 : Fin 1) i d)
/-- The entries of a loaded [1, 512, 1] mask block. -/
def blkColMask (v : Vec Ideal S1x512x1 .i32) : Fin 512 → BitVec 32 := fun i => v (ix3 (0 : Fin 1) i (0 : Fin 1))
/-- The entries of a loaded [1, 1, 512] mask block. -/
def blkRowMask (v : Vec Ideal S1x1x512 .i32) : Fin 512 → BitVec 32 := fun j => v (ix3 (0 : Fin 1) (0 : Fin 1) j)

/-- A block with its unit axis dropped, narrowed to bf16, reads its rows. -/
theorem narrowed_apply (v : Vec Ideal S1x512x768 .f32) (i : Fin 512) (d : Fin 768) :
    k0_pay4 (F := Ideal) v (ix2 i d) = blkRows v i d := by
  show shapeCast S512x768 v shapeCasts_S1x512x768_S512x768 (ix2 i d) = _
  rw [shapeCast_1ab_ab_apply]; rfl

theorem narrowed_apply' (v : Vec Ideal S1x512x768 .f32) (i : Fin 512) (d : Fin 768) :
    k0_pay5 (F := Ideal) v (ix2 i d) = blkRows v i d := by
  show shapeCast S512x768 v shapeCasts_S1x512x768_S512x768 (ix2 i d) = _
  rw [shapeCast_1ab_ab_apply]; rfl

theorem unit_dropped_apply (v : Vec Ideal S1x512x768 .f32) (i : Fin 512) (d : Fin 768) :
    k0_pay2 (F := Ideal) v (ix2 i d) = blkRows v i d := by
  show shapeCast S512x768 v shapeCasts_S1x512x768_S512x768 (ix2 i d) = _
  rw [shapeCast_1ab_ab_apply]; rfl

theorem unit_dropped_apply' (v : Vec Ideal S1x512x768 .f32) (i : Fin 512) (d : Fin 768) :
    k0_pay3 (F := Ideal) v (ix2 i d) = blkRows v i d := by
  show shapeCast S512x768 v shapeCasts_S1x512x768_S512x768 (ix2 i d) = _
  rw [shapeCast_1ab_ab_apply]; rfl

/-- The first mask, as numbers, spread along the columns. -/
theorem colMask_apply (v7 : Vec Ideal S1x512x1 .i32) (i j : Fin 512) :
    broadcastTo S512x512 (sitofp (F := Ideal) .f32 (shapeCast S512x1 v7 shapeCasts_S1x512x1_S512x1)) broadcasts_S512x1_S512x512 (ix2 i j)
      = (FloatOps.sitofp (F := Ideal) .f32 (blkColMask v7 i) : EReal) := by
  rw [Cert.Rbf.Keepdims.broadcastTo_a1_ab_apply]
  show FloatOps.sitofp (F := Ideal) .f32 (shapeCast S512x1 v7 shapeCasts_S1x512x1_S512x1 (ix2 i (0 : Fin 1))) = _
  rw [shapeCast_1ab_ab_apply]; rfl

/-- The second mask, as numbers, spread along the rows. -/
theorem rowMask_apply (v10 : Vec Ideal S1x1x512 .i32) (i j : Fin 512) :
    broadcastTo S512x512 (sitofp (F := Ideal) .f32 (shapeCast S1x512 v10 shapeCasts_S1x1x512_S1x512)) broadcasts_S1x512_S512x512 (ix2 i j)
      = (FloatOps.sitofp (F := Ideal) .f32 (blkRowMask v10 j) : EReal) := by
  rw [broadcastTo_1b_ab_apply]
  show FloatOps.sitofp (F := Ideal) .f32 (shapeCast S1x512 v10 shapeCasts_S1x1x512_S1x512 (ix2 (0 : Fin 1) j)) = _
  rw [shapeCast_1ab_ab_apply]; rfl

/-! ### The three matrix products' operand indices -/

abbrev dotScore := dot_S512x768_S512x768_S512x512_1_1_0_0_n_n
abbrev dotRows := dot_S512x512_S512x768_S512x768_1_0_0_1_n_n
abbrev dotCols := dot_S512x512_S512x768_S512x768_0_0_1_1_n_n

theorem dotScore_lhs0 (y : S512x512.Idx) (q : dotScore.contr.Idx) : (dotScore.lhsIdx y q 0).val = (y 0).val := by
  unfold DotDims.lhsIdx
  rw [dif_neg (show ¬(0 : Fin S512x768.rank) ∈ dotScore.lhsBatch by decide), dif_pos (show (0 : Fin S512x768.rank) ∈ dotScore.lhsNonContracting by decide)]
  rfl
theorem dotScore_rhs0 (y : S512x512.Idx) (q : dotScore.contr.Idx) : (dotScore.rhsIdx y q 0).val = (y 1).val := by
  unfold DotDims.rhsIdx
  rw [dif_neg (show ¬(0 : Fin S512x768.rank) ∈ dotScore.rhsBatch by decide), dif_pos (show (0 : Fin S512x768.rank) ∈ dotScore.rhsNonContracting by decide)]
  rfl

theorem dotScore_lhs (i j : Fin 512) (k : Fin 768) :
    dotScore.lhsIdx (ix2 i j) ((contrEquiv1 dotScore 768 rfl rfl).symm k) = ix2 i k := by
  funext a; apply Fin.ext
  match a with
  | ⟨0, _⟩ => exact dotScore_lhs0 _ _
  | ⟨1, _⟩ => exact (dotScore.lhsIdx_val_of_single rfl _ _).trans (contrEquiv1_symm_val dotScore 768 rfl rfl k)

theorem dotScore_rhs (i j : Fin 512) (k : Fin 768) :
    dotScore.rhsIdx (ix2 i j) ((contrEquiv1 dotScore 768 rfl rfl).symm k) = ix2 j k := by
  funext a; apply Fin.ext
  match a with
  | ⟨0, _⟩ => exact dotScore_rhs0 _ _
  | ⟨1, _⟩ => exact (dotScore.rhsIdx_val_of_single rfl _ _).trans (contrEquiv1_symm_val dotScore 768 rfl rfl k)

/-- The product of the first block with the second's transpose, at (i, j): the inner product of rows i and j. -/
theorem inner_apply (v0 v2 : Vec Ideal S1x512x768 .f32) (i j : Fin 512) :
    matmul dotScore none (k0_pay4 (F := Ideal) v0) (k0_pay5 (F := Ideal) v2) (constant S512x512 .f32 0x00000000#32) (ix2 i j)
      = ∑ d : Fin 768, blkRows v0 i d * blkRows v2 j d := by
  refine (Ideal.matmul_constant_zero_apply dotScore none _ _ (ix2 i j)).trans ?_
  rw [← Equiv.sum_comp (contrEquiv1 dotScore 768 rfl rfl).symm]
  refine Finset.sum_congr rfl fun k _ => ?_
  rw [dotScore_lhs, dotScore_rhs, narrowed_apply, narrowed_apply']

/-- THE MASKED SCORES of the point's blocks. -/
theorem score_apply (v0 v2 : Vec Ideal S1x512x768 .f32) (v7 : Vec Ideal S1x512x1 .i32) (v10 : Vec Ideal S1x1x512 .i32) (i j : Fin 512) :
    k0_pay6 (F := Ideal) v0 v2 v7 v10 (ix2 i j) = score (blkRows v0) (blkRows v2) (blkColMask v7) (blkRowMask v10) i j := by
  unfold k0_pay6 score
  show Scalar.select (Ideal.cmp .olt
      (broadcastTo S512x512 (sitofp (F := Ideal) .f32 (shapeCast S512x1 v7 shapeCasts_S1x512x1_S512x1)) broadcasts_S512x1_S512x512 (ix2 i j)
        * broadcastTo S512x512 (sitofp (F := Ideal) .f32 (shapeCast S1x512 v10 shapeCasts_S1x1x512_S1x512)) broadcasts_S1x512_S512x512 (ix2 i j))
      (Ideal.ofBits .f32 0x3F000000#32)) (Ideal.ofBits .f32 0xC7C35000#32)
      (matmul dotScore none (k0_pay4 (F := Ideal) v0) (k0_pay5 (F := Ideal) v2) (constant S512x512 .f32 0x00000000#32) (ix2 i j)) = _
  rw [colMask_apply, rowMask_apply, inner_apply]

end Cert.KernelIdeal.Pay

end
-- ==== Proof.KernelSoft.lean ====
/-
  Weights along the rows and along the columns of a 512 × 512 matrix, as the kernel's vector operations compute them.

  For a matrix S the kernel takes the largest entry of each row (a lane reduction from minus infinity), views the 512
  maxima as a column, spreads the column along the rows, subtracts, exponentiates, sums each row (a lane reduction from
  zero), and divides by the sums spread the same way; for the columns it does the same along the other axis, the
  maxima and sums viewed as a row. Read at (i, j), with S (i, j) = f i j, these are the exponential of
  f i j minus the row's (column's) largest value, and that over the row's (column's) sum.
-/
import proofs.«137245_j2740189134870_2_alg».proof.Proof.Gen.KernelIdeal
import proofs.«137245_j2740189134870_2_alg».proof.Proof.Spec
import proofs.«137245_j2740189134870_2_alg».proof.Proof.LibKeepdims
import Idealize.ShloMosaic.Lib.ValueLayout
import Idealize.ShloMosaic.Lib.ValueIdx
import Idealize.ShloMosaic.PureOps.Ideal.Laws

noncomputable section

open scoped BigOperators

namespace Cert.KernelIdeal.Soft

open Cert.KernelIdeal Cert.KernelIdeal.Gen Idealize.ShloMosaic Idealize.ShloMosaic.ValueIdx Cert.SoftAlign

/-- A vector of 512 viewed as a column and spread along the rows reads, at (i, j), the vector at i. -/
theorem keepCol_apply (v : FVec Ideal S512 .f32) (i j : Fin 512) :
    broadcastTo S512x512 (shapeCast S512x1 v shapeCasts_S512_S512x1) broadcasts_S512x1_S512x512 (ix2 i j) = v (ix1 i) := by
  rw [Cert.Rbf.Keepdims.broadcastTo_a1_ab_apply, Cert.Rbf.Keepdims.shapeCast_a_a1_apply]

/-- A vector of 512 viewed as a row and spread along the columns reads, at (i, j), the vector at j. -/
theorem keepRow_apply (v : FVec Ideal S512 .f32) (i j : Fin 512) :
    broadcastTo S512x512 (shapeCast S1x512 v shapeCasts_S512_S1x512) broadcasts_S1x512_S512x512 (ix2 i j) = v (ix1 j) := by
  rw [broadcastTo_1b_ab_apply, shapeCast_a_1a_apply]

/-- Row i with column coordinate k inserted is (i, k). -/
theorem lift_row (i k : Fin 512) : reduces_S512x512_S512.lift (ix1 i) k = ix2 i k := by
  funext a; apply Fin.ext
  match a with
  | ⟨0, _⟩ => rfl
  | ⟨1, _⟩ => rfl

/-- Column j with row coordinate k inserted is (k, j). -/
theorem lift_col (j k : Fin 512) : reduces_S512x512_S512_2.lift (ix1 j) k = ix2 k j := by
  funext a; apply Fin.ext
  match a with
  | ⟨0, _⟩ => rfl
  | ⟨1, _⟩ => rfl

section
variable (S : FVec Ideal S512x512 .f32) (f : Fin 512 → Fin 512 → EReal) (hS : ∀ i j, S (ix2 i j) = f i j)
include hS

theorem rowMax_apply (i : Fin 512) :
    multiReduction .maximumf [1] S512 S 0xFF800000#32 reduces_S512x512_S512 (.inl rfl) rfl (ix1 i)
      = (Finset.univ : Finset (Fin 512)).fold max floor (fun j => f i j) := by
  refine (Ideal.multiReduction_maximumf_single S _ reduces_S512x512_S512 _ _ (ix1 i)).trans ?_
  refine congrArg (fun g : Fin 512 → EReal => (Finset.univ : Finset (Fin 512)).fold max floor g) ?_
  funext j
  exact (congrArg S (lift_row i j)).trans (hS i j)

theorem colMax_apply (j : Fin 512) :
    multiReduction .maximumf [0] S512 S 0xFF800000#32 reduces_S512x512_S512_2 (.inl rfl) rfl (ix1 j)
      = (Finset.univ : Finset (Fin 512)).fold max floor (fun i => f i j) := by
  refine (Ideal.multiReduction_maximumf_single S _ reduces_S512x512_S512_2 _ _ (ix1 j)).trans ?_
  refine congrArg (fun g : Fin 512 → EReal => (Finset.univ : Finset (Fin 512)).fold max floor g) ?_
  funext i
  exact (congrArg S (lift_col j i)).trans (hS i j)

theorem rowSum_apply (i : Fin 512) :
    multiReduction .add [1] S512 S 0x00000000#32 reduces_S512x512_S512 (.inl rfl) rfl (ix1 i) = ∑ j : Fin 512, f i j := by
  refine (Ideal.multiReduction_add_single S _ reduces_S512x512_S512 _ _ (ix1 i)).trans ?_
  exact Finset.sum_congr rfl fun j _ => (congrArg S (lift_row i j)).trans (hS i j)

theorem colSum_apply (j : Fin 512) :
    multiReduction .add [0] S512 S 0x00000000#32 reduces_S512x512_S512_2 (.inl rfl) rfl (ix1 j) = ∑ i : Fin 512, f i j := by
  refine (Ideal.multiReduction_add_single S _ reduces_S512x512_S512_2 _ _ (ix1 j)).trans ?_
  exact Finset.sum_congr rfl fun i _ => (congrArg S (lift_col j i)).trans (hS i j)

end

/-- The exponentials along the rows: `exp (S - max over the row)`. -/
def rowExp (S : FVec Ideal S512x512 .f32) : FVec Ideal S512x512 .f32 :=
  exp (subf S (broadcastTo S512x512 (shapeCast S512x1
    (multiReduction .maximumf [1] S512 S 0xFF800000#32 reduces_S512x512_S512 (.inl rfl) rfl) shapeCasts_S512_S512x1) broadcasts_S512x1_S512x512))

/-- The weights along the rows: the exponentials over their row sums. -/
def rowWeights (S : FVec Ideal S512x512 .f32) : FVec Ideal S512x512 .f32 :=
  divf (rowExp S) (broadcastTo S512x512 (shapeCast S512x1
    (multiReduction .add [1] S512 (rowExp S) 0x00000000#32 reduces_S512x512_S512 (.inl rfl) rfl) shapeCasts_S512_S512x1) broadcasts_S512x1_S512x512)

/-- The exponentials along the columns. -/
def colExp (S : FVec Ideal S512x512 .f32) : FVec Ideal S512x512 .f32 :=
  exp (subf S (broadcastTo S512x512 (shapeCast S1x512
    (multiReduction .maximumf [0] S512 S 0xFF800000#32 reduces_S512x512_S512_2 (.inl rfl) rfl) shapeCasts_S512_S1x512) broadcasts_S1x512_S512x512))

/-- The column sums of a matrix, spread back over the matrix. -/
def colSums (W : FVec Ideal S512x512 .f32) : FVec Ideal S512x512 .f32 :=
  broadcastTo S512x512 (shapeCast S1x512
    (multiReduction .add [0] S512 W 0x00000000#32 reduces_S512x512_S512_2 (.inl rfl) rfl) shapeCasts_S512_S1x512) broadcasts_S1x512_S512x512

section
variable (S : FVec Ideal S512x512 .f32) (f : Fin 512 → Fin 512 → EReal) (hS : ∀ i j, S (ix2 i j) = f i j)
include hS

theorem rowExp_apply (i j : Fin 512) :
    rowExp S (ix2 i j) = Ideal.exp (f i j - (Finset.univ : Finset (Fin 512)).fold max floor (fun j' => f i j')) := by
  show Ideal.exp (S (ix2 i j) - broadcastTo S512x512 (shapeCast S512x1
    (multiReduction .maximumf [1] S512 S 0xFF800000#32 reduces_S512x512_S512 (.inl rfl) rfl) shapeCasts_S512_S512x1) broadcasts_S512x1_S512x512 (ix2 i j)) = _
  rw [keepCol_apply, rowMax_apply S f hS, hS]

theorem rowWeights_apply (i j : Fin 512) :
    rowWeights S (ix2 i j)
      = Ideal.div (Ideal.exp (f i j - (Finset.univ : Finset (Fin 512)).fold max floor (fun j' => f i j')))
          (∑ j'' : Fin 512, Ideal.exp (f i j'' - (Finset.univ : Finset (Fin 512)).fold max floor (fun j' => f i j'))) := by
  show Ideal.div (rowExp S (ix2 i j)) (broadcastTo S512x512 (shapeCast S512x1
    (multiReduction .add [1] S512 (rowExp S) 0x00000000#32 reduces_S512x512_S512 (.inl rfl) rfl) shapeCasts_S512_S512x1) broadcasts_S512x1_S512x512 (ix2 i j)) = _
  rw [keepCol_apply, rowSum_apply (rowExp S) _ (fun i j => rowExp_apply S f hS i j), rowExp_apply S f hS]

theorem colExp_apply (i j : Fin 512) :
    colExp S (ix2 i j) = Ideal.exp (f i j - (Finset.univ : Finset (Fin 512)).fold max floor (fun i' => f i' j)) := by
  show Ideal.exp (S (ix2 i j) - broadcastTo S512x512 (shapeCast S1x512
    (multiReduction .maximumf [0] S512 S 0xFF800000#32 reduces_S512x512_S512_2 (.inl rfl) rfl) shapeCasts_S512_S1x512) broadcasts_S1x512_S512x512 (ix2 i j)) = _
  rw [keepRow_apply, colMax_apply S f hS, hS]

end

theorem colSums_apply (W : FVec Ideal S512x512 .f32) (g : Fin 512 → Fin 512 → EReal) (hW : ∀ i j, W (ix2 i j) = g i j) (i j : Fin 512) :
    colSums W (ix2 i j) = ∑ i' : Fin 512, g i' j := by
  unfold colSums
  rw [keepRow_apply, colSum_apply W g hW]

end Cert.KernelIdeal.Soft

end
-- ==== Proof.KernelCtx.lean ====
/-
  The kernel's body, one grid point: the two contexts.

  The weights along the rows of the masked scores multiply the second block on the matrix unit — the context of the first
  block's rows —, and the weights along the columns, contracted over the rows, multiply the first block — the context of
  the second block's rows. Each product goes into a zero accumulator, so at the exact values it is the plain sum over the
  contracted coordinate.
-/
import proofs.«137245_j2740189134870_2_alg».proof.Proof.KernelScore
import proofs.«137245_j2740189134870_2_alg».proof.Proof.KernelSoft

noncomputable section

open scoped BigOperators

namespace Cert.KernelIdeal.Pay

open Cert.KernelIdeal Cert.KernelIdeal.Gen Idealize.ShloMosaic Idealize.ShloMosaic.ValueIdx Cert.SoftAlign Cert.KernelIdeal.Soft

/-! ### Operand indices of the two products -/

theorem dotRows_lhs0 (y : S512x768.Idx) (q : dotRows.contr.Idx) : (dotRows.lhsIdx y q 0).val = (y 0).val := by
  unfold DotDims.lhsIdx
  rw [dif_neg (show ¬(0 : Fin S512x512.rank) ∈ dotRows.lhsBatch by decide), dif_pos (show (0 : Fin S512x512.rank) ∈ dotRows.lhsNonContracting by decide)]
  rfl
theorem dotRows_rhs1 (y : S512x768.Idx) (q : dotRows.contr.Idx) : (dotRows.rhsIdx y q 1).val = (y 1).val := by
  unfold DotDims.rhsIdx
  rw [dif_neg (show ¬(1 : Fin S512x768.rank) ∈ dotRows.rhsBatch by decide), dif_pos (show (1 : Fin S512x768.rank) ∈ dotRows.rhsNonContracting by decide)]
  rfl
theorem dotRows_lhs (i : Fin 512) (d : Fin 768) (k : Fin 512) :
    dotRows.lhsIdx (ix2 i d) ((contrEquiv1 dotRows 512 rfl rfl).symm k) = ix2 i k := by
  funext a; apply Fin.ext
  match a with
  | ⟨0, _⟩ => exact dotRows_lhs0 _ _
  | ⟨1, _⟩ => exact (dotRows.lhsIdx_val_of_single rfl _ _).trans (contrEquiv1_symm_val dotRows 512 rfl rfl k)
theorem dotRows_rhs (i : Fin 512) (d : Fin 768) (k : Fin 512) :
    dotRows.rhsIdx (ix2 i d) ((contrEquiv1 dotRows 512 rfl rfl).symm k) = ix2 k d := by
  funext a; apply Fin.ext
  match a with
  | ⟨0, _⟩ => exact (dotRows.rhsIdx_val_of_single rfl _ _).trans (contrEquiv1_symm_val dotRows 512 rfl rfl k)
  | ⟨1, _⟩ => exact dotRows_rhs1 _ _

theorem dotCols_lhs1 (y : S512x768.Idx) (q : dotCols.contr.Idx) : (dotCols.lhsIdx y q 1).val = (y 0).val := by
  unfold DotDims.lhsIdx
  rw [dif_neg (show ¬(1 : Fin S512x512.rank) ∈ dotCols.lhsBatch by decide), dif_pos (show (1 : Fin S512x512.rank) ∈ dotCols.lhsNonContracting by decide)]
  rfl
theorem dotCols_rhs1 (y : S512x768.Idx) (q : dotCols.contr.Idx) : (dotCols.rhsIdx y q 1).val = (y 1).val := by
  unfold DotDims.rhsIdx
  rw [dif_neg (show ¬(1 : Fin S512x768.rank) ∈ dotCols.rhsBatch by decide), dif_pos (show (1 : Fin S512x768.rank) ∈ dotCols.rhsNonContracting by decide)]
  rfl
theorem dotCols_lhs (j : Fin 512) (d : Fin 768) (k : Fin 512) :
    dotCols.lhsIdx (ix2 j d) ((contrEquiv1 dotCols 512 rfl rfl).symm k) = ix2 k j := by
  funext a; apply Fin.ext
  match a with
  | ⟨0, _⟩ => exact (dotCols.lhsIdx_val_of_single rfl _ _).trans (contrEquiv1_symm_val dotCols 512 rfl rfl k)
  | ⟨1, _⟩ => exact dotCols_lhs1 _ _
theorem dotCols_rhs (j : Fin 512) (d : Fin 768) (k : Fin 512) :
    dotCols.rhsIdx (ix2 j d) ((contrEquiv1 dotCols 512 rfl rfl).symm k) = ix2 k d := by
  funext a; apply Fin.ext
  match a with
  | ⟨0, _⟩ => exact (dotCols.rhsIdx_val_of_single rfl _ _).trans (contrEquiv1_symm_val dotCols 512 rfl rfl k)
  | ⟨1, _⟩ => exact dotCols_rhs1 _ _

section
variable (v0 v2 : Vec Ideal S1x512x768 .f32) (v7 : Vec Ideal S1x512x1 .i32) (v10 : Vec Ideal S1x1x512 .i32)

/-- The first context's payload is the product of the row weights of the scores with the second block. -/
theorem ctxA_term : k0_pay7 (F := Ideal) v0 v2 v7 v10
    = matmul dotRows none (truncf .bf16 (rowWeights (k0_pay6 (F := Ideal) v0 v2 v7 v10)) bitsLt_bf16_f32) (k0_pay5 (F := Ideal) v2)
        (constant S512x768 .f32 0x00000000#32) := rfl
/-- The column exponentials and their sums, as payloads. -/
theorem colW_term : k0_pay8 (F := Ideal) v0 v2 v7 v10 = colExp (k0_pay6 (F := Ideal) v0 v2 v7 v10) := rfl
theorem colZ_term : k0_pay9 (F := Ideal) v0 v2 v7 v10 = colSums (k0_pay8 (F := Ideal) v0 v2 v7 v10) := rfl

/-- THE CONTEXT OF THE FIRST BLOCK, at (i, d). -/
theorem ctxA_apply (i : Fin 512) (d : Fin 768) :
    k0_pay7 (F := Ideal) v0 v2 v7 v10 (ix2 i d) = ctxA (blkRows v0) (blkRows v2) (blkColMask v7) (blkRowMask v10) i d := by
  rw [ctxA_term]
  refine (Ideal.matmul_constant_zero_apply dotRows none _ _ (ix2 i d)).trans ?_
  rw [← Equiv.sum_comp (contrEquiv1 dotRows 512 rfl rfl).symm]
  unfold ctxA
  refine Finset.sum_congr rfl fun j _ => ?_
  rw [dotRows_lhs, dotRows_rhs, narrowed_apply']
  refine congrArg (· * blkRows v2 j d) ?_
  show rowWeights (k0_pay6 (F := Ideal) v0 v2 v7 v10) (ix2 i j) = _
  rw [rowWeights_apply _ _ (fun i j => score_apply v0 v2 v7 v10 i j)]
  rfl

theorem colW_apply (i j : Fin 512) :
    k0_pay8 (F := Ideal) v0 v2 v7 v10 (ix2 i j) = colW (blkRows v0) (blkRows v2) (blkColMask v7) (blkRowMask v10) i j := by
  rw [colW_term, colExp_apply _ _ (fun i j => score_apply v0 v2 v7 v10 i j)]
  rfl

theorem colZ_apply (i j : Fin 512) :
    k0_pay9 (F := Ideal) v0 v2 v7 v10 (ix2 i j) = colZ (blkRows v0) (blkRows v2) (blkColMask v7) (blkRowMask v10) j := by
  rw [colZ_term, colSums_apply _ _ (fun i j => colW_apply v0 v2 v7 v10 i j)]
  rfl

/-- THE CONTEXT OF THE SECOND BLOCK, at (j, d). -/
theorem ctxB_apply (j : Fin 512) (d : Fin 768) :
    k0_pay10 (F := Ideal) (k0_pay4 (F := Ideal) v0) (k0_pay8 (F := Ideal) v0 v2 v7 v10) (k0_pay9 (F := Ideal) v0 v2 v7 v10) (ix2 j d)
      = ctxB (blkRows v0) (blkRows v2) (blkColMask v7) (blkRowMask v10) j d := by
  unfold k0_pay10
  refine (Ideal.matmul_constant_zero_apply dotCols none _ _ (ix2 j d)).trans ?_
  rw [← Equiv.sum_comp (contrEquiv1 dotCols 512 rfl rfl).symm]
  unfold ctxB
  refine Finset.sum_congr rfl fun i _ => ?_
  rw [dotCols_lhs, dotCols_rhs, narrowed_apply]
  refine congrArg (· * blkRows v0 i d) ?_
  show Ideal.div (k0_pay8 (F := Ideal) v0 v2 v7 v10 (ix2 i j)) (k0_pay9 (F := Ideal) v0 v2 v7 v10 (ix2 i j)) = _
  rw [colW_apply, colZ_apply]
  rfl

end

end Cert.KernelIdeal.Pay

end
-- ==== Proof.KernelBlock.lean ====
/-
  The kernel's body, one grid point: what it leaves in the two output blocks.

  Each output block [1, 512, 3072] is written by four stores of [1, 512, 768], side by side along the features: the
  sequence's own block, its context, their difference and their product. Every store is the piece its rectangle names
  of ONE function of the block's index — the sequence beside its context — so the four together are that function.
-/
import proofs.«137245_j2740189134870_2_alg».proof.Proof.KernelCtx
import proofs.«137245_j2740189134870_2_alg».proof.Proof.Gen.KernelIdeal.Frame
import Idealize.ShloMosaic.Lib.Pipeline.Value

noncomputable section

namespace Cert.KernelIdeal.Pay

open Cert.KernelIdeal Cert.KernelIdeal.Gen Idealize.ShloMosaic Idealize.ShloMosaic.ValueIdx Cert.SoftAlign

theorem zeros3 : (![0, 0, 0] : Fin 3 → Nat) = fun _ => 0 := funext fun a => by fin_cases a <;> rfl

section
variable (x0 x1 : Vec Ideal S1x512x768 .f32) (x2 : Vec Ideal S1x512x1 .i32) (x3 : Vec Ideal S1x1x512 .i32)

/-- The first output block: the first sequence's block beside its context. -/
def blockA : Vec Ideal S1x512x3072 .f32 :=
  fun y => outA (blkRows x0) (blkRows x1) (blkColMask x2) (blkRowMask x3) (y 1) (y 2)
/-- The second output block: the second sequence's block beside its context. -/
def blockB : Vec Ideal S1x512x3072 .f32 :=
  fun y => outB (blkRows x0) (blkRows x1) (blkColMask x2) (blkRowMask x3) (y 1) (y 2)

/-! ### The first output's four stores -/

theorem storeA0 (x : S1x512x768.Idx) :
    k0_pay11 (F := Ideal) (k0_pay2 (F := Ideal) x0) x = blockA x0 x1 x2 x3 (r0_3.emb x) := by
  obtain ⟨u, i, d, rfl⟩ : ∃ (u : Fin 1) (i : Fin 512) (d : Fin 768), x = ix3 u i d := ⟨x 0, x 1, x 2, eq_ix3 x⟩
  show shapeCast S1x512x768 (k0_pay2 (F := Ideal) x0) shapeCasts_S512x768_S1x512x768 (ix3 u i d) = _
  rw [shapeCast_ab_1ab_apply, unit_dropped_apply]
  unfold blockA outA
  exact (enhance_block0 _ _ i _ d _ rfl rfl).symm

theorem storeA1 (x : S1x512x768.Idx) :
    k0_pay12 (F := Ideal) (k0_pay7 (F := Ideal) x0 x1 x2 x3) x = blockA x0 x1 x2 x3 (r0_4.emb x) := by
  obtain ⟨u, i, d, rfl⟩ : ∃ (u : Fin 1) (i : Fin 512) (d : Fin 768), x = ix3 u i d := ⟨x 0, x 1, x 2, eq_ix3 x⟩
  show shapeCast S1x512x768 (k0_pay7 (F := Ideal) x0 x1 x2 x3) shapeCasts_S512x768_S1x512x768 (ix3 u i d) = _
  rw [shapeCast_ab_1ab_apply, ctxA_apply]
  unfold blockA outA
  exact (enhance_block1 _ _ i _ d _ rfl rfl).symm

theorem storeA2 (x : S1x512x768.Idx) :
    k0_pay13 (F := Ideal) (k0_pay2 (F := Ideal) x0) (k0_pay7 (F := Ideal) x0 x1 x2 x3) x = blockA x0 x1 x2 x3 (r0_5.emb x) := by
  obtain ⟨u, i, d, rfl⟩ : ∃ (u : Fin 1) (i : Fin 512) (d : Fin 768), x = ix3 u i d := ⟨x 0, x 1, x 2, eq_ix3 x⟩
  show shapeCast S1x512x768 (subf (k0_pay2 (F := Ideal) x0) (k0_pay7 (F := Ideal) x0 x1 x2 x3)) shapeCasts_S512x768_S1x512x768 (ix3 u i d) = _
  rw [shapeCast_ab_1ab_apply, subf_apply, unit_dropped_apply, ctxA_apply]
  unfold blockA outA
  exact (enhance_block2 _ _ i _ d _ rfl rfl).symm

theorem storeA3 (x : S1x512x768.Idx) :
    k0_pay14 (F := Ideal) (k0_pay2 (F := Ideal) x0) (k0_pay7 (F := Ideal) x0 x1 x2 x3) x = blockA x0 x1 x2 x3 (r0_6.emb x) := by
  obtain ⟨u, i, d, rfl⟩ : ∃ (u : Fin 1) (i : Fin 512) (d : Fin 768), x = ix3 u i d := ⟨x 0, x 1, x 2, eq_ix3 x⟩
  show shapeCast S1x512x768 (mulf (k0_pay2 (F := Ideal) x0) (k0_pay7 (F := Ideal) x0 x1 x2 x3)) shapeCasts_S512x768_S1x512x768 (ix3 u i d) = _
  rw [shapeCast_ab_1ab_apply, mulf_apply, unit_dropped_apply, ctxA_apply]
  unfold blockA outA
  exact (enhance_block3 _ _ i _ d _ rfl rfl).symm

/-- THE FIRST OUTPUT BLOCK after the body. -/
theorem out0_4_eq : out0_4 (F := Ideal) x0 x1 x2 x3 = blockA x0 x1 x2 x3 := by
  unfold out0_4
  simp only [View.ld_unit_zero (S := S1x512x768) zeros3, View.ld_unit_zero (S := S1x512x1) zeros3, View.ld_unit_zero (S := S1x1x512) zeros3]
  funext y
  refine View.canon_apply_of_pieces (blockA x0 x1 x2 x3) _ ?_ y (cover0_4 _ _ _ _ y)
  intro p hp x
  simp only [List.mem_cons, List.not_mem_nil, or_false] at hp
  rcases hp with rfl | rfl | rfl | rfl
  · exact storeA3 x0 x1 x2 x3 x
  · exact storeA2 x0 x1 x2 x3 x
  · exact storeA1 x0 x1 x2 x3 x
  · exact storeA0 x0 x1 x2 x3 x

/-! ### The second output's four stores -/

theorem storeB0 (x : S1x512x768.Idx) :
    k0_pay15 (F := Ideal) (k0_pay3 (F := Ideal) x1) x = blockB x0 x1 x2 x3 (r0_3.emb x) := by
  obtain ⟨u, i, d, rfl⟩ : ∃ (u : Fin 1) (i : Fin 512) (d : Fin 768), x = ix3 u i d := ⟨x 0, x 1, x 2, eq_ix3 x⟩
  show shapeCast S1x512x768 (k0_pay3 (F := Ideal) x1) shapeCasts_S512x768_S1x512x768 (ix3 u i d) = _
  rw [shapeCast_ab_1ab_apply, unit_dropped_apply']
  unfold blockB outB
  exact (enhance_block0 _ _ i _ d _ rfl rfl).symm

theorem storeB1 (x : S1x512x768.Idx) :
    k0_pay16 (F := Ideal) (k0_pay4 (F := Ideal) x0) (k0_pay8 (F := Ideal) x0 x1 x2 x3) (k0_pay9 (F := Ideal) x0 x1 x2 x3) x
      = blockB x0 x1 x2 x3 (r0_4.emb x) := by
  obtain ⟨u, i, d, rfl⟩ : ∃ (u : Fin 1) (i : Fin 512) (d : Fin 768), x = ix3 u i d := ⟨x 0, x 1, x 2, eq_ix3 x⟩
  show shapeCast S1x512x768 (k0_pay10 (F := Ideal) (k0_pay4 (F := Ideal) x0) (k0_pay8 (F := Ideal) x0 x1 x2 x3) (k0_pay9 (F := Ideal) x0 x1 x2 x3))
    shapeCasts_S512x768_S1x512x768 (ix3 u i d) = _
  rw [shapeCast_ab_1ab_apply, ctxB_apply]
  unfold blockB outB
  exact (enhance_block1 _ _ i _ d _ rfl rfl).symm

theorem storeB2 (x : S1x512x768.Idx) :
    k0_pay17 (F := Ideal) (k0_pay3 (F := Ideal) x1) (k0_pay4 (F := Ideal) x0) (k0_pay8 (F := Ideal) x0 x1 x2 x3) (k0_pay9 (F := Ideal) x0 x1 x2 x3) x
      = blockB x0 x1 x2 x3 (r0_5.emb x) := by
  obtain ⟨u, i, d, rfl⟩ : ∃ (u : Fin 1) (i : Fin 512) (d : Fin 768), x = ix3 u i d := ⟨x 0, x 1, x 2, eq_ix3 x⟩
  show shapeCast S1x512x768 (subf (k0_pay3 (F := Ideal) x1)
      (k0_pay10 (F := Ideal) (k0_pay4 (F := Ideal) x0) (k0_pay8 (F := Ideal) x0 x1 x2 x3) (k0_pay9 (F := Ideal) x0 x1 x2 x3)))
    shapeCasts_S512x768_S1x512x768 (ix3 u i d) = _
  rw [shapeCast_ab_1ab_apply, subf_apply, unit_dropped_apply', ctxB_apply]
  unfold blockB outB
  exact (enhance_block2 _ _ i _ d _ rfl rfl).symm

theorem storeB3 (x : S1x512x768.Idx) :
    k0_pay1 (F := Ideal) (k0_pay18 (F := Ideal) (k0_pay3 (F := Ideal) x1) (k0_pay4 (F := Ideal) x0) (k0_pay8 (F := Ideal) x0 x1 x2 x3) (k0_pay9 (F := Ideal) x0 x1 x2 x3)) x
      = blockB x0 x1 x2 x3 (r0_6.emb x) := by
  obtain ⟨u, i, d, rfl⟩ : ∃ (u : Fin 1) (i : Fin 512) (d : Fin 768), x = ix3 u i d := ⟨x 0, x 1, x 2, eq_ix3 x⟩
  show shapeCast S1x512x768 (mulf (k0_pay3 (F := Ideal) x1)
      (k0_pay10 (F := Ideal) (k0_pay4 (F := Ideal) x0) (k0_pay8 (F := Ideal) x0 x1 x2 x3) (k0_pay9 (F := Ideal) x0 x1 x2 x3)))
    shapeCasts_S512x768_S1x512x768 (ix3 u i d) = _
  rw [shapeCast_ab_1ab_apply, mulf_apply, unit_dropped_apply', ctxB_apply]
  unfold blockB outB
  exact (enhance_block3 _ _ i _ d _ rfl rfl).symm

/-- THE SECOND OUTPUT BLOCK after the body. -/
theorem out0_5_eq : out0_5 (F := Ideal) x0 x1 x2 x3 = blockB x0 x1 x2 x3 := by
  unfold out0_5
  simp only [View.ld_unit_zero (S := S1x512x768) zeros3, View.ld_unit_zero (S := S1x512x1) zeros3, View.ld_unit_zero (S := S1x1x512) zeros3]
  funext y
  refine View.canon_apply_of_pieces (blockB x0 x1 x2 x3) _ ?_ y (cover0_5 _ _ _ _ y)
  intro p hp x
  simp only [List.mem_cons, List.not_mem_nil, or_false] at hp
  rcases hp with rfl | rfl | rfl | rfl
  · exact storeB3 x0 x1 x2 x3 x
  · exact storeB2 x0 x1 x2 x3 x
  · exact storeB1 x0 x1 x2 x3 x
  · exact storeB0 x0 x1 x2 x3 x

end

end Cert.KernelIdeal.Pay

end
-- ==== Proof.KernelWhole.lean ====
/-
  From the kernel's blocks to its two result arrays.

  The grid has one point per batch element. Point t stages block t of each sequence and of each mask (the masks as the
  host's two reshapes left them: [64, 512, 1] and [64, 1, 512] views of the [64, 512] masks), and writes back block t of
  each result. What it writes back is the sequence's block beside its context, computed from batch element t alone —
  that is, block t of ONE function of the four argument arrays, the soft alignment of every batch element. The 64
  blocks cover the result arrays, so after the run each result array is that function.
-/
import proofs.«137245_j2740189134870_2_alg».proof.Proof.KernelBlock
import proofs.«137245_j2740189134870_2_alg».proof.Proof.Gen.KernelIdeal.Value
import Idealize.ShloMosaic.Lib.Pipeline.Value
import Idealize.ShloMosaic.Lib.StableHlo.Run

noncomputable section

namespace Cert.KernelIdeal.Whole

open Cert.KernelIdeal Cert.KernelIdeal.Gen Cert.KernelIdeal.Pay Idealize.ShloMosaic Idealize.ShloMosaic.TcCoe Idealize.ShloMosaic.ValueIdx
open Idealize.SL.Sem Cert.SoftAlign Idealize.ShloMosaic.StableHlo
open Idealize.ShloMosaic.Pipeline (Dat)

variable (m : (ℓ : Loc nD τ sig) → Buf (Elt Ideal) ℓ) (ρ : Dev nD → PrngReg)

/-- The printed index maps, decided over the 64 points: every window's block index is (the point's batch element, 0, 0). -/
theorem idx_facts : ∀ t : Fin cfg0.N,
    win0_0.index t (0 : Fin 3) = win0_4.index t (0 : Fin 3) ∧ win0_0.index t (1 : Fin 3) = 0 ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = 0 ∧ win0_3.index t (2 : Fin 3) = 0
    ∧ win0_5.index t (0 : Fin 3) = win0_4.index t (0 : Fin 3) ∧ win0_5.index t (1 : Fin 3) = 0 ∧ win0_5.index t (2 : Fin 3) = 0
    ∧ win0_4.index t (1 : Fin 3) = 0 ∧ win0_4.index t (2 : Fin 3) = 0 ∧ win0_4.index t (0 : Fin 3) ≤ 63 :=
  (by decide +kernel : ∀ t : Fin grid0.N, _)

/-- Every batch element is some point's. -/
theorem idx_onto : ∀ q : Fin 64, ∃ t : Fin cfg0.N, win0_4.index t (0 : Fin 3) = q.val :=
  (by decide +kernel : ∀ q : Fin 64, ∃ t : Fin grid0.N, win0_4.index t (0 : Fin 3) = q.val)

/-! ### The masks as the region finds them -/

theorem V_maskA (c : Dev nD) :
    (V m c main_v0 : S64x512x1.Idx → BitVec 32)
      = shapeCast S64x512x1 (m ((c : Thread nD τ).loc main_arg1)) shapeCasts_S64x512_S64x512x1 := by
  dsimp only [Gen.V, Gen.hostOps0]; after_results; rfl

theorem V_maskB (c : Dev nD) :
    (V m c main_v1 : S64x1x512.Idx → BitVec 32)
      = shapeCast S64x1x512 (m ((c : Thread nD τ).loc main_arg3)) shapeCasts_S64x512_S64x1x512 := by
  dsimp only [Gen.V, Gen.hostOps0]; after_results; rfl

/-- A [64, 512] mask viewed as [64, 512, 1] reads, at (n, i, u), the mask at (n, i). -/
theorem maskA_read (k : S64x512.Idx → BitVec 32) (n : Fin 64) (i : Fin 512) (u : Fin 1) :
    shapeCast S64x512x1 k shapeCasts_S64x512_S64x512x1 (ix3 n i u) = k (ix2 n i) :=
  shapeCast_apply k _ _ _ (by
    have hu : u.val = 0 := by omega
    rw [Shape.rowMajor_val_three, Shape.rowMajor_val_two]
    show n.val * 512 + i.val = (n.val * 512 + i.val) * 1 + u.val
    omega)

/-- A [64, 512] mask viewed as [64, 1, 512] reads, at (n, u, j), the mask at (n, j). -/
theorem maskB_read (k : S64x512.Idx → BitVec 32) (n : Fin 64) (u : Fin 1) (j : Fin 512) :
    shapeCast S64x1x512 k shapeCasts_S64x512_S64x1x512 (ix3 n u j) = k (ix2 n j) :=
  shapeCast_apply k _ _ _ (by
    have hu : u.val = 0 := by omega
    rw [Shape.rowMajor_val_three, Shape.rowMajor_val_two]
    show n.val * 512 + j.val = (n.val * 1 + u.val) * 512 + j.val
    omega)

/-! ### The staged blocks at a point, read off the argument arrays -/

section Blocks
variable (c : Dev nD) (t : Fin cfg0.N) (n : Fin 64) (hn : n.val = win0_4.index t (0 : Fin 3))
include hn

theorem rowsA_at : blkRows (iblk m c 0 t) = rows (m ((c : Thread nD τ).loc main_arg0)) n := by
  obtain ⟨e0, e1, e2, -⟩ := idx_facts t
  funext i d
  show V m c main_arg0 (((cfg0.win 0).blk t).view.emb (ix3 (0 : Fin 1) i d)) = m ((c : Thread nD τ).loc main_arg0) (ix3 n i d)
  rw [V_main_arg0]
  refine congrArg _ ?_
  funext a; apply Fin.ext
  match a with
  | ⟨0, _⟩ => show win0_0.index t (0 : Fin 3) * 1 + 1 * 0 = n.val; omega
  | ⟨1, _⟩ => show win0_0.index t (1 : Fin 3) * 512 + 1 * i.val = i.val; omega
  | ⟨2, _⟩ => show win0_0.index t (2 : Fin 3) * 768 + 1 * d.val = d.val; omega

theorem rowsB_at : blkRows (iblk m c 1 t) = rows (m ((c : Thread nD τ).loc main_arg2)) n := by
  obtain ⟨-, -, -, e0, e1, e2, -⟩ := idx_facts t
  funext i d
  show V m c main_arg2 (((cfg0.win 1).blk t).view.emb (ix3 (0 : Fin 1) i d)) = m ((c : Thread nD τ).loc main_arg2) (ix3 n i d)
  rw [V_main_arg2]
  refine congrArg _ ?_
  funext a; apply Fin.ext
  match a with
  | ⟨0, _⟩ => show win0_1.index t (0 : Fin 3) * 1 + 1 * 0 = n.val; omega
  | ⟨1, _⟩ => show win0_1.index t (1 : Fin 3) * 512 + 1 * i.val = i.val; omega
  | ⟨2, _⟩ => show win0_1.index t (2 : Fin 3) * 768 + 1 * d.val = d.val; omega

theorem maskA_at : blkColMask (iblk m c 2 t) = maskRow (m ((c : Thread nD τ).loc main_arg1)) n := by
  obtain ⟨-, -, -, -, -, -, e0, e1, e2, -⟩ := idx_facts t
  funext i
  show V m c main_v0 (((cfg0.win 2).blk t).view.emb (ix3 (0 : Fin 1) i (0 : Fin 1))) = m ((c : Thread nD τ).loc main_arg1) (ix2 n i)
  have e : ((cfg0.win 2).blk t).view.emb (ix3 (0 : Fin 1) i (0 : Fin 1)) = ix3 n i (0 : Fin 1) := by
    funext a; apply Fin.ext
    match a with
    | ⟨0, _⟩ => show win0_2.index t (0 : Fin 3) * 1 + 1 * 0 = n.val; omega
    | ⟨1, _⟩ => show win0_2.index t (1 : Fin 3) * 512 + 1 * i.val = i.val; omega
    | ⟨2, _⟩ => show win0_2.index t (2 : Fin 3) * 1 + 1 * 0 = 0; omega
  rw [e, V_maskA, maskA_read]

theorem maskB_at : blkRowMask (iblk m c 3 t) = maskRow (m ((c : Thread nD τ).loc main_arg3)) n := by
  obtain ⟨-, -, -, -, -, -, -, -, -, e0, e1, e2, -⟩ := idx_facts t
  funext j
  show V m c main_v1 (((cfg0.win 3).blk t).view.emb (ix3 (0 : Fin 1) (0 : Fin 1) j)) = m ((c : Thread nD τ).loc main_arg3) (ix2 n j)
  have e : ((cfg0.win 3).blk t).view.emb (ix3 (0 : Fin 1) (0 : Fin 1) j) = ix3 n (0 : Fin 1) j := by
    funext a; apply Fin.ext
    match a with
    | ⟨0, _⟩ => show win0_3.index t (0 : Fin 3) * 1 + 1 * 0 = n.val; omega
    | ⟨1, _⟩ => show win0_3.index t (1 : Fin 3) * 1 + 1 * 0 = 0; omega
    | ⟨2, _⟩ => show win0_3.index t (2 : Fin 3) * 512 + 1 * j.val = j.val; omega
  rw [e, V_maskB, maskB_read]

end Blocks

/-! ### What a point writes back -/

/-- The two results as functions of the launch memory. -/
abbrev GA (c : Dev nD) : S64x512x3072.Idx → EReal :=
  resultA (m ((c : Thread nD τ).loc main_arg0)) (m ((c : Thread nD τ).loc main_arg2)) (m ((c : Thread nD τ).loc main_arg1)) (m ((c : Thread nD τ).loc main_arg3))
abbrev GB (c : Dev nD) : S64x512x3072.Idx → EReal :=
  resultB (m ((c : Thread nD τ).loc main_arg0)) (m ((c : Thread nD τ).loc main_arg2)) (m ((c : Thread nD τ).loc main_arg1)) (m ((c : Thread nD τ).loc main_arg3))

/-- POINT t WRITES BACK block t of the first result. -/
theorem flushedA_eq (c : Dev nD) (t : Fin cfg0.N) :
    (dats m 0 c).flushed 4 t = ((cfg0.win 4).blk t).view.read (Elt Ideal) (GA m c) := by
  rw [Value.flushed4, out0_4_eq (iblk m c 0 t) (iblk m c 1 t) (iblk m c 2 t) (iblk m c 3 t)]
  obtain ⟨-, -, -, -, -, -, -, -, -, -, -, -, -, -, -, f1, f2, f0⟩ := idx_facts t
  funext j
  have hj0 : (j 0).val < 1 := (j 0).isLt
  have hn : (((cfg0.win 4).blk t).view.emb j 0 : Fin 64).val = win0_4.index t (0 : Fin 3) := by
    show win0_4.index t (0 : Fin 3) * 1 + 1 * (j 0).val = win0_4.index t (0 : Fin 3); omega
  have h1 : (j 1 : Fin 512) = ((cfg0.win 4).blk t).view.emb j 1 :=
    Fin.ext (by show (j 1).val = win0_4.index t (1 : Fin 3) * 512 + 1 * (j 1).val; omega)
  have h2 : (j 2 : Fin 3072) = ((cfg0.win 4).blk t).view.emb j 2 :=
    Fin.ext (by show (j 2).val = win0_4.index t (2 : Fin 3) * 3072 + 1 * (j 2).val; omega)
  show outA (blkRows (iblk m c 0 t)) (blkRows (iblk m c 1 t)) (blkColMask (iblk m c 2 t)) (blkRowMask (iblk m c 3 t)) (j 1) (j 2)
    = outA (rows (m ((c : Thread nD τ).loc main_arg0)) (((cfg0.win 4).blk t).view.emb j 0))
        (rows (m ((c : Thread nD τ).loc main_arg2)) (((cfg0.win 4).blk t).view.emb j 0))
        (maskRow (m ((c : Thread nD τ).loc main_arg1)) (((cfg0.win 4).blk t).view.emb j 0))
        (maskRow (m ((c : Thread nD τ).loc main_arg3)) (((cfg0.win 4).blk t).view.emb j 0))
        (((cfg0.win 4).blk t).view.emb j 1) (((cfg0.win 4).blk t).view.emb j 2)
  rw [rowsA_at m c t _ hn, rowsB_at m c t _ hn, maskA_at m c t _ hn, maskB_at m c t _ hn]
  exact congrArg₂ _ h1 h2

/-- POINT t WRITES BACK block t of the second result. -/
theorem flushedB_eq (c : Dev nD) (t : Fin cfg0.N) :
    (dats m 0 c).flushed 5 t = ((cfg0.win 5).blk t).view.read (Elt Ideal) (GB m c) := by
  rw [Value.flushed5, out0_5_eq (iblk m c 0 t) (iblk m c 1 t) (iblk m c 2 t) (iblk m c 3 t)]
  obtain ⟨-, -, -, -, -, -, -, -, -, -, -, -, g0, g1, g2, f1, f2, f0⟩ := idx_facts t
  funext j
  have hj0 : (j 0).val < 1 := (j 0).isLt
  have hn : (((cfg0.win 5).blk t).view.emb j 0 : Fin 64).val = win0_4.index t (0 : Fin 3) := by
    show win0_5.index t (0 : Fin 3) * 1 + 1 * (j 0).val = win0_4.index t (0 : Fin 3); omega
  have h1 : (j 1 : Fin 512) = ((cfg0.win 5).blk t).view.emb j 1 :=
    Fin.ext (by show (j 1).val = win0_5.index t (1 : Fin 3) * 512 + 1 * (j 1).val; omega)
  have h2 : (j 2 : Fin 3072) = ((cfg0.win 5).blk t).view.emb j 2 :=
    Fin.ext (by show (j 2).val = win0_5.index t (2 : Fin 3) * 3072 + 1 * (j 2).val; omega)
  show outB (blkRows (iblk m c 0 t)) (blkRows (iblk m c 1 t)) (blkColMask (iblk m c 2 t)) (blkRowMask (iblk m c 3 t)) (j 1) (j 2)
    = outB (rows (m ((c : Thread nD τ).loc main_arg0)) (((cfg0.win 5).blk t).view.emb j 0))
        (rows (m ((c : Thread nD τ).loc main_arg2)) (((cfg0.win 5).blk t).view.emb j 0))
        (maskRow (m ((c : Thread nD τ).loc main_arg1)) (((cfg0.win 5).blk t).view.emb j 0))
        (maskRow (m ((c : Thread nD τ).loc main_arg3)) (((cfg0.win 5).blk t).view.emb j 0))
        (((cfg0.win 5).blk t).view.emb j 1) (((cfg0.win 5).blk t).view.emb j 2)
  rw [rowsA_at m c t _ hn, rowsB_at m c t _ hn, maskA_at m c t _ hn, maskB_at m c t _ hn]
  exact congrArg₂ _ h1 h2

/-! ### The blocks cover the arrays -/

theorem mem_blkA (t : Fin cfg0.N) (i : S64x512x3072.Idx) :
    i ∈ ((cfg0.win 4).blk t).view.set ↔ ∀ a : Fin 3, win0_4.index t a * S1x512x3072.size a ≤ (i a).val ∧ (i a).val < win0_4.index t a * S1x512x3072.size a + S1x512x3072.size a := by
  show i ∈ ((View.whole main_v2_0).slice (win0_4.rect t)).set ↔ _
  rw [View.set_slice_whole, Rect.mem_set_unit]
  exact Iff.rfl

theorem mem_blkB (t : Fin cfg0.N) (i : S64x512x3072.Idx) :
    i ∈ ((cfg0.win 5).blk t).view.set ↔ ∀ a : Fin 3, win0_5.index t a * S1x512x3072.size a ≤ (i a).val ∧ (i a).val < win0_5.index t a * S1x512x3072.size a + S1x512x3072.size a := by
  show i ∈ ((View.whole main_v2_1).slice (win0_5.rect t)).set ↔ _
  rw [View.set_slice_whole, Rect.mem_set_unit]
  exact Iff.rfl

theorem coverA (i : S64x512x3072.Idx) : ∃ t : Fin cfg0.N, (cfg0.win 4).flush t = true ∧ i ∈ ((cfg0.win 4).blk t).view.set := by
  have hi0 : (i 0).val < 64 := (i 0).isLt
  have hi1 : (i 1).val < 512 := (i 1).isLt
  have hi2 : (i 2).val < 3072 := (i 2).isLt
  obtain ⟨t, ht⟩ := idx_onto ⟨(i 0).val, hi0⟩
  have ht' : win0_4.index t (0 : Fin 3) = (i 0).val := ht
  obtain ⟨-, -, -, -, -, -, -, -, -, -, -, -, -, -, -, f1, f2, f0⟩ := idx_facts t
  refine ⟨t, flush0_4 t, ?_⟩
  rw [mem_blkA]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 3072 ≤ (i 2).val ∧ (i 2).val < win0_4.index t (2 : Fin 3) * 3072 + 3072; omega

theorem coverB (i : S64x512x3072.Idx) : ∃ t : Fin cfg0.N, (cfg0.win 5).flush t = true ∧ i ∈ ((cfg0.win 5).blk t).view.set := by
  have hi0 : (i 0).val < 64 := (i 0).isLt
  have hi1 : (i 1).val < 512 := (i 1).isLt
  have hi2 : (i 2).val < 3072 := (i 2).isLt
  obtain ⟨t, ht⟩ := idx_onto ⟨(i 0).val, hi0⟩
  have ht' : win0_4.index t (0 : Fin 3) = (i 0).val := ht
  obtain ⟨-, -, -, -, -, -, -, -, -, -, -, -, g0, g1, g2, f1, f2, f0⟩ := idx_facts t
  refine ⟨t, flush0_5 t, ?_⟩
  rw [mem_blkB]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 3072 ≤ (i 2).val ∧ (i 2).val < win0_5.index t (2 : Fin 3) * 3072 + 3072; omega

/-! ### The arrays after the run -/

theorem finalA (c : Dev nD) : (dats m 0 c).arrAt 4 cfg0.N = GA m c :=
  (dats m 0 c).arrAt_eq_of_cover 4 (GA m c) (fun t _ => flushedA_eq m c t) coverA

theorem finalB (c : Dev nD) : (dats m 0 c).arrAt 5 cfg0.N = GB m c :=
  (dats m 0 c).arrAt_eq_of_cover 5 (GB m c) (fun t _ => flushedB_eq m c t) coverB

/-- THE KERNEL'S RUN at the exact values: every weakly fair execution ends with the two result arrays at the soft alignment
    of the argument arrays, the arguments unchanged. -/
theorem run : θ_run defs (onTc (τ := τ) (main (F := Ideal))) ⟨m, fun _ => 0, ρ⟩ fun r => ∀ c : Dev nD,
      r.2.mem ((c : Thread nD τ).loc main_v2_0) = GA m c
      ∧ r.2.mem ((c : Thread nD τ).loc main_v2_1) = GB m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (finalA m c), (h c).2.1.trans (finalB m c), (h c).2.2⟩)
    (Value.run_blocks m ρ)

end Cert.KernelIdeal.Whole

end
-- ==== Proof.RefRun.lean ====
/-
  The reference as a straight line of host operations, and its run.

  The reference's program is 51 host operations in a row. They fall into five stretches: the masked scores of every
  pair of rows (a batched product of the two sequences, the two masks spread over the pairs, a comparison with 1/2 and a
  choice between the product and -100000); the weights along the rows of the scores and the first context; the
  weights along the columns and the second context; and, twice, a sequence set beside its context, their difference and
  their product. Each stretch is read as one function of the buffers it starts from, so that the masked scores, which
  four later operations read, are carried as one value and never written out again. Run from any memory, every weakly
  fair execution ends with each buffer at the five stretches' functions composed.
-/
import proofs.«137245_j2740189134870_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-! ## The five stretches -/

/-- The masked scores. -/
abbrev opsScore : List (HloOp τ sig (Elt F)) :=
  [ binary main_arg0 main_arg2 main_v0 ((fun l r => Host.dotGeneral dot_S64x512x768_S64x512x768_S64x512x512_2_2_1_1_0_0 none l r) : (⟨S64x512x768, .f32⟩ : BufTy).Contents (Elt F) → (⟨S64x512x768, .f32⟩ : BufTy).Contents (Elt F) → (⟨S64x512x512, .f32⟩ : BufTy).Contents (Elt F)),
    unary main_arg1 main_v1 (broadcastInDim S64x512x1 ![0, 1] bcast_S64x512_S64x512x1_0_1 : (⟨S64x512, .i32⟩ : BufTy).Contents (Elt F) → (⟨S64x512x1, .i32⟩ : BufTy).Contents (Elt F)),
    unary main_v1 main_v2 (sitofp .f32 : (⟨S64x512x1, .i32⟩ : BufTy).Contents (Elt F) → (⟨S64x512x1, .f32⟩ : BufTy).Contents (Elt F)),
    unary main_arg3 main_v3 (broadcastInDim S64x1x512 ![0, 2] bcast_S64x512_S64x1x512_0_2 : (⟨S64x512, .i32⟩ : BufTy).Contents (Elt F) → (⟨S64x1x512, .i32⟩ : BufTy).Contents (Elt F)),
    unary main_v3 main_v4 (sitofp .f32 : (⟨S64x1x512, .i32⟩ : BufTy).Contents (Elt F) → (⟨S64x1x512, .f32⟩ : BufTy).Contents (Elt F)),
    unary main_v2 main_v5 (broadcastInDim S64x512x512 ![0, 1, 2] bcast_S64x512x1_S64x512x512_0_1_2 : (⟨S64x512x1, .f32⟩ : BufTy).Contents (Elt F) → (⟨S64x512x512, .f32⟩ : BufTy).Contents (Elt F)),
    unary main_v4 main_v6 (broadcastInDim S64x512x512 ![0, 1, 2] bcast_S64x1x512_S64x512x512_0_1_2 : (⟨S64x1x512, .f32⟩ : BufTy).Contents (Elt F) → (⟨S64x512x512, .f32⟩ : BufTy).Contents (Elt F)),
    binary main_v5 main_v6 main_v7 (mulf : (⟨S64x512x512, .f32⟩ : BufTy).Contents (Elt F) → (⟨S64x512x512, .f32⟩ : BufTy).Contents (Elt F) → (⟨S64x512x512, .f32⟩ : BufTy).Contents (Elt F)),
    nullary main_cst (constant S_ .f32 0x3F000000#32),
    unary main_cst main_v8 (broadcastInDim S64x512x512 ![] bcast_S_S64x512x512 : (⟨S_, .f32⟩ : BufTy).Contents (Elt F) → (⟨S64x512x512, .f32⟩ : BufTy).Contents (Elt F)),
    binary main_v7 main_v8 main_v9 (cmpf .olt : (⟨S64x512x512, .f32⟩ : BufTy).Contents (Elt F) → (⟨S64x512x512, .f32⟩ : BufTy).Contents (Elt F) → (⟨S64x512x512, .i1⟩ : BufTy).Contents (Elt F)),
    nullary main_cst_0 (constant S_ .f32 0xC7C35000#32),
    TRef.unary (TRef.of (T := ⟨S_, .f32⟩) main_cst_0) (TRef.of (T := ⟨S_, .f32⟩) main_call0_v0) id,
    TRef.unary (TRef.of (T := ⟨S_, .f32⟩) main_call0_v0) (TRef.of (T := ⟨S64x512x512, .f32⟩) main_call0_v1) (broadcastInDim S64x512x512 ![] bcast_S_S64x512x512),
    TRef.ternary (TRef.of (T := ⟨S64x512x512, .i1⟩) main_v9) (TRef.of (T := ⟨S64x512x512, .f32⟩) main_call0_v1) (TRef.of (T := ⟨S64x512x512, .f32⟩) main_v0) (TRef.of (T := ⟨S64x512x512, .f32⟩) main_v10) select ]

/-- The weights along the rows, and the first context. -/
abbrev opsRows : List (HloOp τ sig (Elt F)) :=
  [ nullary main_cst_1 (constant S_ .f32 0xFF800000#32),
    binary main_v10 main_cst_1 main_v11 ((fun x v => Host.reduce FloatOps.maximumf x v reducesTo_S64x512x512_S64x512_d2 h_S_) : (⟨S64x512x512, .f32⟩ : BufTy).Contents (Elt F) → (⟨S_, .f32⟩ : BufTy).Contents (Elt F) → (⟨S64x512, .f32⟩ : BufTy).Contents (Elt F)),
    nullary main_cst_2 (constant S_ .f32 0xFF800000#32),
    unary main_cst_2 main_v12 (broadcastInDim S64x512 ![] bcast_S_S64x512 : (⟨S_, .f32⟩ : BufTy).Contents (Elt F) → (⟨S64x512, .f32⟩ : BufTy).Contents (Elt F)),
    binary main_v12 main_v11 main_v13 (maximumf : (⟨S64x512, .f32⟩ : BufTy).Contents (Elt F) → (⟨S64x512, .f32⟩ : BufTy).Contents (Elt F) → (⟨S64x512, .f32⟩ : BufTy).Contents (Elt F)),
    unary main_v13 main_v14 (broadcastInDim S64x512x1 ![0, 1] bcast_S64x512_S64x512x1_0_1 : (⟨S64x512, .f32⟩ : BufTy).Contents (Elt F) → (⟨S64x512x1, .f32⟩ : BufTy).Contents (Elt F)),
    unary main_v14 main_v15 (broadcastInDim S64x512x512 ![0, 1, 2] bcast_S64x512x1_S64x512x512_0_1_2 : (⟨S64x512x1, .f32⟩ : BufTy).Contents (Elt F) → (⟨S64x512x512, .f32⟩ : BufTy).Contents (Elt F)),
    binary main_v10 main_v15 main_v16 (subf : (⟨S64x512x512, .f32⟩ : BufTy).Contents (Elt F) → (⟨S64x512x512, .f32⟩ : BufTy).Contents (Elt F) → (⟨S64x512x512, .f32⟩ : BufTy).Contents (Elt F)),
    unary main_v16 main_v17 (Host.exp : (⟨S64x512x512, .f32⟩ : BufTy).Contents (Elt F) → (⟨S64x512x512, .f32⟩ : BufTy).Contents (Elt F)),
    nullary main_cst_3 (constant S_ .f32 0x00000000#32),
    binary main_v17 main_cst_3 main_v18 ((fun x v => Host.reduceAdd x v reducesTo_S64x512x512_S64x512_d2 h_S_) : (⟨S64x512x512, .f32⟩ : BufTy).Contents (Elt F) → (⟨S_, .f32⟩ : BufTy).Contents (Elt F) → (⟨S64x512, .f32⟩ : BufTy).Contents (Elt F)),
    unary main_v18 main_v19 (broadcastInDim S64x512x1 ![0, 1] bcast_S64x512_S64x512x1_0_1 : (⟨S64x512, .f32⟩ : BufTy).Contents (Elt F) → (⟨S64x512x1, .f32⟩ : BufTy).Contents (Elt F)),
    unary main_v19 main_v20 (broadcastInDim S64x512x512 ![0, 1, 2] bcast_S64x512x1_S64x512x512_0_1_2 : (⟨S64x512x1, .f32⟩ : BufTy).Contents (Elt F) → (⟨S64x512x512, .f32⟩ : BufTy).Contents (Elt F)),
    binary main_v17 main_v20 main_v21 (Host.divf : (⟨S64x512x512, .f32⟩ : BufTy).Contents (Elt F) → (⟨S64x512x512, .f32⟩ : BufTy).Contents (Elt F) → (⟨S64x512x512, .f32⟩ : BufTy).Contents (Elt F)),
    binary main_v21 main_arg2 main_v22 ((fun l r => Host.dotGeneral dot_S64x512x512_S64x512x768_S64x512x768_2_1_1_2_0_0 none l r) : (⟨S64x512x512, .f32⟩ : BufTy).Contents (Elt F) → (⟨S64x512x768, .f32⟩ : BufTy).Contents (Elt F) → (⟨S64x512x768, .f32⟩ : BufTy).Contents (Elt F)) ]

/-- The weights along the columns, and the second context. -/
abbrev opsCols : List (HloOp τ sig (Elt F)) :=
  [ nullary main_cst_4 (constant S_ .f32 0xFF800000#32),
    binary main_v10 main_cst_4 main_v23 ((fun x v => Host.reduce FloatOps.maximumf x v reducesTo_S64x512x512_S64x512_d1 h_S_) : (⟨S64x512x512, .f32⟩ : BufTy).Contents (Elt F) → (⟨S_, .f32⟩ : BufTy).Contents (Elt F) → (⟨S64x512, .f32⟩ : BufTy).Contents (Elt F)),
    nullary main_cst_5 (constant S_ .f32 0xFF800000#32),
    unary main_cst_5 main_v24 (broadcastInDim S64x512 ![] bcast_S_S64x512 : (⟨S_, .f32⟩ : BufTy).Contents (Elt F) → (⟨S64x512, .f32⟩ : BufTy).Contents (Elt F)),
    binary main_v24 main_v23 main_v25 (maximumf : (⟨S64x512, .f32⟩ : BufTy).Contents (Elt F) → (⟨S64x512, .f32⟩ : BufTy).Contents (Elt F) → (⟨S64x512, .f32⟩ : BufTy).Contents (Elt F)),
    unary main_v25 main_v26 (broadcastInDim S64x1x512 ![0, 2] bcast_S64x512_S64x1x512_0_2 : (⟨S64x512, .f32⟩ : BufTy).Contents (Elt F) → (⟨S64x1x512, .f32⟩ : BufTy).Contents (Elt F)),
    unary main_v26 main_v27 (broadcastInDim S64x512x512 ![0, 1, 2] bcast_S64x1x512_S64x512x512_0_1_2 : (⟨S64x1x512, .f32⟩ : BufTy).Contents (Elt F) → (⟨S64x512x512, .f32⟩ : BufTy).Contents (Elt F)),
    binary main_v10 main_v27 main_v28 (subf : (⟨S64x512x512, .f32⟩ : BufTy).Contents (Elt F) → (⟨S64x512x512, .f32⟩ : BufTy).Contents (Elt F) → (⟨S64x512x512, .f32⟩ : BufTy).Contents (Elt F)),
    unary main_v28 main_v29 (Host.exp : (⟨S64x512x512, .f32⟩ : BufTy).Contents (Elt F) → (⟨S64x512x512, .f32⟩ : BufTy).Contents (Elt F)),
    nullary main_cst_6 (constant S_ .f32 0x00000000#32),
    binary main_v29 main_cst_6 main_v30 ((fun x v => Host.reduceAdd x v reducesTo_S64x512x512_S64x512_d1 h_S_) : (⟨S64x512x512, .f32⟩ : BufTy).Contents (Elt F) → (⟨S_, .f32⟩ : BufTy).Contents (Elt F) → (⟨S64x512, .f32⟩ : BufTy).Contents (Elt F)),
    unary main_v30 main_v31 (broadcastInDim S64x1x512 ![0, 2] bcast_S64x512_S64x1x512_0_2 : (⟨S64x512, .f32⟩ : BufTy).Contents (Elt F) → (⟨S64x1x512, .f32⟩ : BufTy).Contents (Elt F)),
    unary main_v31 main_v32 (broadcastInDim S64x512x512 ![0, 1, 2] bcast_S64x1x512_S64x512x512_0_1_2 : (⟨S64x1x512, .f32⟩ : BufTy).Contents (Elt F) → (⟨S64x512x512, .f32⟩ : BufTy).Contents (Elt F)),
    binary main_v29 main_v32 main_v33 (Host.divf : (⟨S64x512x512, .f32⟩ : BufTy).Contents (Elt F) → (⟨S64x512x512, .f32⟩ : BufTy).Contents (Elt F) → (⟨S64x512x512, .f32⟩ : BufTy).Contents (Elt F)),
    binary main_v33 main_arg0 main_v34 ((fun l r => Host.dotGeneral dot_S64x512x512_S64x512x768_S64x512x768_1_1_2_2_0_0 none l r) : (⟨S64x512x512, .f32⟩ : BufTy).Contents (Elt F) → (⟨S64x512x768, .f32⟩ : BufTy).Contents (Elt F) → (⟨S64x512x768, .f32⟩ : BufTy).Contents (Elt F)) ]

/-- The first sequence beside its context. -/
abbrev opsOutA : List (HloOp τ sig (Elt F)) :=
  [ binary main_arg0 main_v22 main_v35 (subf : (⟨S64x512x768, .f32⟩ : BufTy).Contents (Elt F) → (⟨S64x512x768, .f32⟩ : BufTy).Contents (Elt F) → (⟨S64x512x768, .f32⟩ : BufTy).Contents (Elt F)),
    binary main_arg0 main_v22 main_v36 (mulf : (⟨S64x512x768, .f32⟩ : BufTy).Contents (Elt F) → (⟨S64x512x768, .f32⟩ : BufTy).Contents (Elt F) → (⟨S64x512x768, .f32⟩ : BufTy).Contents (Elt F)),
    nary ![main_arg0, main_v22, main_v35, main_v36] main_v37 (fun u => concatenate S64x512x3072 2 [⟨S64x512x768, u 0⟩, ⟨S64x512x768, u 1⟩, ⟨S64x512x768, u 2⟩, ⟨S64x512x768, u 3⟩] concatenates_S64x512x768_S64x512x768_S64x512x768_S64x512x768_S64x512x3072_d2) ]

/-- The second sequence beside its context. -/
abbrev opsOutB : List (HloOp τ sig (Elt F)) :=
  [ binary main_arg2 main_v34 main_v38 (subf : (⟨S64x512x768, .f32⟩ : BufTy).Contents (Elt F) → (⟨S64x512x768, .f32⟩ : BufTy).Contents (Elt F) → (⟨S64x512x768, .f32⟩ : BufTy).Contents (Elt F)),
    binary main_arg2 main_v34 main_v39 (mulf : (⟨S64x512x768, .f32⟩ : BufTy).Contents (Elt F) → (⟨S64x512x768, .f32⟩ : BufTy).Contents (Elt F) → (⟨S64x512x768, .f32⟩ : BufTy).Contents (Elt F)),
    nary ![main_arg2, main_v34, main_v38, main_v39] main_v40 (fun u => concatenate S64x512x3072 2 [⟨S64x512x768, u 0⟩, ⟨S64x512x768, u 1⟩, ⟨S64x512x768, u 2⟩, ⟨S64x512x768, u 3⟩] concatenates_S64x512x768_S64x512x768_S64x512x768_S64x512x768_S64x512x3072_d2) ]

/-- @main's operations, in order. -/
abbrev ops : List (HloOp τ sig (Elt F)) := opsScore ++ (opsRows ++ (opsCols ++ (opsOutA ++ opsOutB)))

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., unary_bufs_sub .., unary_bufs_sub .., unary_bufs_sub .., unary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., binary_bufs_sub .., nary_bufs_sub .., binary_bufs_sub .., binary_bufs_sub .., nary_bufs_sub ..⟩

/-- Every weakly fair execution of @main ends with each buffer at the fold of the operations over the launch memory. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-- Two stretches one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## Each stretch as a function of what it reads -/

/-- The masked scores of every pair of rows, from the two sequences and the two masks. -/
def scoreT (x0 x2 : (⟨S64x512x768, .f32⟩ : BufTy).Contents (Elt F)) (x1 x3 : (⟨S64x512, .i32⟩ : BufTy).Contents (Elt F)) : (⟨S64x512x512, .f32⟩ : BufTy).Contents (Elt F) :=
  select (cmpf (F := F) .olt
      (mulf (F := F) (broadcastInDim S64x512x512 ![0, 1, 2] bcast_S64x512x1_S64x512x512_0_1_2 (sitofp (F := F) .f32 (broadcastInDim S64x512x1 ![0, 1] bcast_S64x512_S64x512x1_0_1 x1)))
        (broadcastInDim S64x512x512 ![0, 1, 2] bcast_S64x1x512_S64x512x512_0_1_2 (sitofp (F := F) .f32 (broadcastInDim S64x1x512 ![0, 2] bcast_S64x512_S64x1x512_0_2 x3))))
      (broadcastInDim S64x512x512 ![] bcast_S_S64x512x512 (constant (F := F) S_ .f32 0x3F000000#32)))
    (broadcastInDim S64x512x512 ![] bcast_S_S64x512x512 (id (constant (F := F) S_ .f32 0xC7C35000#32)))
    (Host.dotGeneral dot_S64x512x768_S64x512x768_S64x512x512_2_2_1_1_0_0 none x0 x2)

/-- A [64, 512] array of per-row values spread along the columns of [64, 512, 512]. -/
def rowKeep (v : (⟨S64x512, .f32⟩ : BufTy).Contents (Elt F)) : (⟨S64x512x512, .f32⟩ : BufTy).Contents (Elt F) :=
  broadcastInDim S64x512x512 ![0, 1, 2] bcast_S64x512x1_S64x512x512_0_1_2 (broadcastInDim S64x512x1 ![0, 1] bcast_S64x512_S64x512x1_0_1 v)
/-- A [64, 512] array of per-column values spread along the rows of [64, 512, 512]. -/
def colKeep (v : (⟨S64x512, .f32⟩ : BufTy).Contents (Elt F)) : (⟨S64x512x512, .f32⟩ : BufTy).Contents (Elt F) :=
  broadcastInDim S64x512x512 ![0, 1, 2] bcast_S64x1x512_S64x512x512_0_1_2 (broadcastInDim S64x1x512 ![0, 2] bcast_S64x512_S64x1x512_0_2 v)
/-- Minus infinity at every entry of [64, 512]. -/
def lowest : (⟨S64x512, .f32⟩ : BufTy).Contents (Elt F) := broadcastInDim S64x512 ![] bcast_S_S64x512 (constant (F := F) S_ .f32 0xFF800000#32)

/-- The largest score of each row. -/
def rowTopT (e : (⟨S64x512x512, .f32⟩ : BufTy).Contents (Elt F)) : (⟨S64x512, .f32⟩ : BufTy).Contents (Elt F) :=
  maximumf (lowest (F := F))
    (Host.reduce FloatOps.maximumf e (constant (F := F) S_ .f32 0xFF800000#32) reducesTo_S64x512x512_S64x512_d2 h_S_)
/-- The sum of each row. -/
def rowSumT (w : (⟨S64x512x512, .f32⟩ : BufTy).Contents (Elt F)) : (⟨S64x512, .f32⟩ : BufTy).Contents (Elt F) :=
  Host.reduceAdd w (constant (F := F) S_ .f32 0x00000000#32) reducesTo_S64x512x512_S64x512_d2 h_S_
/-- The exponentials along the rows of the scores. -/
def rowExpT (e : (⟨S64x512x512, .f32⟩ : BufTy).Contents (Elt F)) : (⟨S64x512x512, .f32⟩ : BufTy).Contents (Elt F) :=
  Host.exp (subf e (rowKeep (rowTopT e)))
/-- The weights along the rows. -/
def rowWeightsT (e : (⟨S64x512x512, .f32⟩ : BufTy).Contents (Elt F)) : (⟨S64x512x512, .f32⟩ : BufTy).Contents (Elt F) :=
  Host.divf (rowExpT e) (rowKeep (rowSumT (rowExpT e)))
/-- The first context. -/
def ctxAT (e : (⟨S64x512x512, .f32⟩ : BufTy).Contents (Elt F)) (b : (⟨S64x512x768, .f32⟩ : BufTy).Contents (Elt F)) : (⟨S64x512x768, .f32⟩ : BufTy).Contents (Elt F) :=
  Host.dotGeneral dot_S64x512x512_S64x512x768_S64x512x768_2_1_1_2_0_0 none (rowWeightsT e) b

/-- The largest score of each column. -/
def colTopT (e : (⟨S64x512x512, .f32⟩ : BufTy).Contents (Elt F)) : (⟨S64x512, .f32⟩ : BufTy).Contents (Elt F) :=
  maximumf (lowest (F := F))
    (Host.reduce FloatOps.maximumf e (constant (F := F) S_ .f32 0xFF800000#32) reducesTo_S64x512x512_S64x512_d1 h_S_)
/-- The sum of each column. -/
def colSumT (w : (⟨S64x512x512, .f32⟩ : BufTy).Contents (Elt F)) : (⟨S64x512, .f32⟩ : BufTy).Contents (Elt F) :=
  Host.reduceAdd w (constant (F := F) S_ .f32 0x00000000#32) reducesTo_S64x512x512_S64x512_d1 h_S_
/-- The exponentials along the columns of the scores. -/
def colExpT (e : (⟨S64x512x512, .f32⟩ : BufTy).Contents (Elt F)) : (⟨S64x512x512, .f32⟩ : BufTy).Contents (Elt F) :=
  Host.exp (subf e (colKeep (colTopT e)))
/-- The weights along the columns. -/
def colWeightsT (e : (⟨S64x512x512, .f32⟩ : BufTy).Contents (Elt F)) : (⟨S64x512x512, .f32⟩ : BufTy).Contents (Elt F) :=
  Host.divf (colExpT e) (colKeep (colSumT (colExpT e)))
/-- The second context. -/
def ctxBT (e : (⟨S64x512x512, .f32⟩ : BufTy).Contents (Elt F)) (a : (⟨S64x512x768, .f32⟩ : BufTy).Contents (Elt F)) : (⟨S64x512x768, .f32⟩ : BufTy).Contents (Elt F) :=
  Host.dotGeneral dot_S64x512x512_S64x512x768_S64x512x768_1_1_2_2_0_0 none (colWeightsT e) a

/-- A sequence beside its context, their difference and their product, along the features. -/
def besideT (x t : (⟨S64x512x768, .f32⟩ : BufTy).Contents (Elt F)) : (⟨S64x512x3072, .f32⟩ : BufTy).Contents (Elt F) :=
  concatenate S64x512x3072 2 [⟨S64x512x768, x⟩, ⟨S64x512x768, t⟩, ⟨S64x512x768, subf x t⟩, ⟨S64x512x768, mulf x t⟩]
    concatenates_S64x512x768_S64x512x768_S64x512x768_S64x512x768_S64x512x3072_d2

theorem score_seg (W : Valuation τ sig (Elt F)) :
    after (opsScore (F := F)) W (Proc.devRef .tc main_v10)
      = scoreT (W (Proc.devRef .tc main_arg0)) (W (Proc.devRef .tc main_arg2)) (W (Proc.devRef .tc main_arg1)) (W (Proc.devRef .tc main_arg3)) := by
  after_results_simp <;> rfl

theorem rows_seg (W : Valuation τ sig (Elt F)) :
    after (opsRows (F := F)) W (Proc.devRef .tc main_v22) = ctxAT (W (Proc.devRef .tc main_v10)) (W (Proc.devRef .tc main_arg2)) := by
  after_results_simp <;> rfl

theorem cols_seg (W : Valuation τ sig (Elt F)) :
    after (opsCols (F := F)) W (Proc.devRef .tc main_v34) = ctxBT (W (Proc.devRef .tc main_v10)) (W (Proc.devRef .tc main_arg0)) := by
  after_results_simp <;> rfl

theorem outA_seg (W : Valuation τ sig (Elt F)) :
    after (opsOutA (F := F)) W (Proc.devRef .tc main_v37) = besideT (W (Proc.devRef .tc main_arg0)) (W (Proc.devRef .tc main_v22)) := by
  after_results_simp <;> rfl

theorem outB_seg (W : Valuation τ sig (Elt F)) :
    after (opsOutB (F := F)) W (Proc.devRef .tc main_v40) = besideT (W (Proc.devRef .tc main_arg2)) (W (Proc.devRef .tc main_v34)) := by
  after_results_simp <;> rfl

/-! ## What each stretch leaves alone -/

theorem score_keeps_arg0 (W : Valuation τ sig (Elt F)) :
    after (opsScore (F := F)) W (Proc.devRef .tc main_arg0) = W (Proc.devRef .tc main_arg0) := by
  after_results_simp <;> rfl

theorem score_keeps_arg2 (W : Valuation τ sig (Elt F)) :
    after (opsScore (F := F)) W (Proc.devRef .tc main_arg2) = W (Proc.devRef .tc main_arg2) := by
  after_results_simp <;> rfl

theorem rows_keeps_v10 (W : Valuation τ sig (Elt F)) :
    after (opsRows (F := F)) W (Proc.devRef .tc main_v10) = W (Proc.devRef .tc main_v10) := by
  after_results_simp <;> rfl

theorem rows_keeps_arg0 (W : Valuation τ sig (Elt F)) :
    after (opsRows (F := F)) W (Proc.devRef .tc main_arg0) = W (Proc.devRef .tc main_arg0) := by
  after_results_simp <;> rfl

theorem rows_keeps_arg2 (W : Valuation τ sig (Elt F)) :
    after (opsRows (F := F)) W (Proc.devRef .tc main_arg2) = W (Proc.devRef .tc main_arg2) := by
  after_results_simp <;> rfl

theorem cols_keeps_v22 (W : Valuation τ sig (Elt F)) :
    after (opsCols (F := F)) W (Proc.devRef .tc main_v22) = W (Proc.devRef .tc main_v22) := by
  after_results_simp <;> rfl

theorem cols_keeps_arg0 (W : Valuation τ sig (Elt F)) :
    after (opsCols (F := F)) W (Proc.devRef .tc main_arg0) = W (Proc.devRef .tc main_arg0) := by
  after_results_simp <;> rfl

theorem cols_keeps_arg2 (W : Valuation τ sig (Elt F)) :
    after (opsCols (F := F)) W (Proc.devRef .tc main_arg2) = W (Proc.devRef .tc main_arg2) := by
  after_results_simp <;> rfl

theorem outA_keeps_v34 (W : Valuation τ sig (Elt F)) :
    after (opsOutA (F := F)) W (Proc.devRef .tc main_v34) = W (Proc.devRef .tc main_v34) := by
  after_results_simp <;> rfl

theorem outA_keeps_arg2 (W : Valuation τ sig (Elt F)) :
    after (opsOutA (F := F)) W (Proc.devRef .tc main_arg2) = W (Proc.devRef .tc main_arg2) := by
  after_results_simp <;> rfl

theorem outB_keeps_v37 (W : Valuation τ sig (Elt F)) :
    after (opsOutB (F := F)) W (Proc.devRef .tc main_v37) = W (Proc.devRef .tc main_v37) := by
  after_results_simp <;> rfl

/-! ## The two results, and the arguments, after all 51 operations -/

theorem resultA_after (V : Valuation τ sig (Elt F)) :
    after (ops (F := F)) V (Proc.devRef .tc main_v37)
      = besideT (V (Proc.devRef .tc main_arg0))
          (ctxAT (scoreT (V (Proc.devRef .tc main_arg0)) (V (Proc.devRef .tc main_arg2)) (V (Proc.devRef .tc main_arg1)) (V (Proc.devRef .tc main_arg3)))
            (V (Proc.devRef .tc main_arg2))) := by
  rw [after_append, after_append, after_append, after_append,
    outB_keeps_v37, outA_seg, cols_keeps_arg0, cols_keeps_v22, rows_keeps_arg0, rows_seg, score_keeps_arg0, score_seg, score_keeps_arg2]

theorem resultB_after (V : Valuation τ sig (Elt F)) :
    after (ops (F := F)) V (Proc.devRef .tc main_v40)
      = besideT (V (Proc.devRef .tc main_arg2))
          (ctxBT (scoreT (V (Proc.devRef .tc main_arg0)) (V (Proc.devRef .tc main_arg2)) (V (Proc.devRef .tc main_arg1)) (V (Proc.devRef .tc main_arg3)))
            (V (Proc.devRef .tc main_arg0))) := by
  rw [after_append, after_append, after_append, after_append,
    outB_seg, outA_keeps_arg2, outA_keeps_v34, cols_keeps_arg2, cols_seg, rows_keeps_arg2, rows_keeps_v10, rows_keeps_arg0,
    score_keeps_arg2, score_seg, score_keeps_arg0]

/-! No operation writes an argument. -/

theorem arg0_after (V : Valuation τ sig (Elt F)) :
    after (ops (F := F)) V (Proc.devRef .tc main_arg0) = V (Proc.devRef .tc main_arg0) :=
  after_of_forall_not_mem (b := Proc.devRef .tc main_arg0) _ _ (List.forall_iff_forall_mem.mp (by
    simp only [ops, opsScore, opsRows, opsCols, opsOutA, opsOutB, List.cons_append, List.nil_append, List.Forall, nullary_writes,
      unary_writes, binary_writes, ternary_writes, nary_writes, Finset.mem_singleton]
    repeat' apply And.intro
    all_goals exact devRef_ne_of_ne (by decide)))

theorem arg1_after (V : Valuation τ sig (Elt F)) :
    after (ops (F := F)) V (Proc.devRef .tc main_arg1) = V (Proc.devRef .tc main_arg1) :=
  after_of_forall_not_mem (b := Proc.devRef .tc main_arg1) _ _ (List.forall_iff_forall_mem.mp (by
    simp only [ops, opsScore, opsRows, opsCols, opsOutA, opsOutB, List.cons_append, List.nil_append, List.Forall, nullary_writes,
      unary_writes, binary_writes, ternary_writes, nary_writes, Finset.mem_singleton]
    repeat' apply And.intro
    all_goals exact devRef_ne_of_ne (by decide)))

theorem arg2_after (V : Valuation τ sig (Elt F)) :
    after (ops (F := F)) V (Proc.devRef .tc main_arg2) = V (Proc.devRef .tc main_arg2) :=
  after_of_forall_not_mem (b := Proc.devRef .tc main_arg2) _ _ (List.forall_iff_forall_mem.mp (by
    simp only [ops, opsScore, opsRows, opsCols, opsOutA, opsOutB, List.cons_append, List.nil_append, List.Forall, nullary_writes,
      unary_writes, binary_writes, ternary_writes, nary_writes, Finset.mem_singleton]
    repeat' apply And.intro
    all_goals exact devRef_ne_of_ne (by decide)))

theorem arg3_after (V : Valuation τ sig (Elt F)) :
    after (ops (F := F)) V (Proc.devRef .tc main_arg3) = V (Proc.devRef .tc main_arg3) :=
  after_of_forall_not_mem (b := Proc.devRef .tc main_arg3) _ _ (List.forall_iff_forall_mem.mp (by
    simp only [ops, opsScore, opsRows, opsCols, opsOutA, opsOutB, List.cons_append, List.nil_append, List.Forall, nullary_writes,
      unary_writes, binary_writes, ternary_writes, nary_writes, Finset.mem_singleton]
    repeat' apply And.intro
    all_goals exact devRef_ne_of_ne (by decide)))

end Cert.ReferenceIdeal.Line

end
-- ==== Proof.RefRead.lean ====
/-
  The reference's five stretches read at an index, at the exact values.

  A batched product read at (n, i, j) is the sum over the contracted coordinate of the two operands' entries of batch
  element n; a mask spread over the pairs reads the mask's entry of its own row; a largest value along an axis is the
  fold of max over that axis's coordinates from minus infinity (and taking the larger of minus infinity and it changes
  nothing); a sum along an axis from zero is the sum over that axis's coordinates; four arrays laid side by side along
  the features read, at feature c, the one whose span holds c. Put together, the reference's two results are the soft
  alignment of the specification, batch element by batch element.
-/
import proofs.«137245_j2740189134870_2_alg».proof.Proof.RefRun
import proofs.«137245_j2740189134870_2_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.AtIndex

open Cert.ReferenceIdeal Cert.ReferenceIdeal.Gen Cert.ReferenceIdeal.Line Idealize.ShloMosaic Idealize.ShloMosaic.ValueIdx Cert.SoftAlign

variable {α : Type}

/-! ### Broadcasts read at an index -/

theorem spreadCols_apply (v : S64x512x1.Idx → α) (n : Fin 64) (i j : Fin 512) :
    broadcastInDim S64x512x512 ![0, 1, 2] bcast_S64x512x1_S64x512x512_0_1_2 v (ix3 n i j) = v (ix3 n i (0 : Fin 1)) :=
  broadcastInDim_apply _ bcast_S64x512x1_S64x512x512_0_1_2 v (ix3 n i j) (ix3 n i (0 : Fin 1)) (fun a => match a with
    | ⟨0, _⟩ => by show n.val = if (64 : Nat) = 1 then 0 else n.val; rw [if_neg (by decide)]
    | ⟨1, _⟩ => by show i.val = if (512 : Nat) = 1 then 0 else i.val; rw [if_neg (by decide)]
    | ⟨2, _⟩ => by show 0 = if (1 : Nat) = 1 then 0 else j.val; rw [if_pos rfl])

theorem asCol_apply (v : S64x512.Idx → α) (n : Fin 64) (i : Fin 512) (u : Fin 1) :
    broadcastInDim S64x512x1 ![0, 1] bcast_S64x512_S64x512x1_0_1 v (ix3 n i u) = v (ix2 n i) :=
  broadcastInDim_apply _ bcast_S64x512_S64x512x1_0_1 v (ix3 n i u) (ix2 n i) (fun a => match a with
    | ⟨0, _⟩ => by show n.val = if (64 : Nat) = 1 then 0 else n.val; rw [if_neg (by decide)]
    | ⟨1, _⟩ => by show i.val = if (512 : Nat) = 1 then 0 else i.val; rw [if_neg (by decide)])

theorem spreadRows_apply (v : S64x1x512.Idx → α) (n : Fin 64) (i j : Fin 512) :
    broadcastInDim S64x512x512 ![0, 1, 2] bcast_S64x1x512_S64x512x512_0_1_2 v (ix3 n i j) = v (ix3 n (0 : Fin 1) j) :=
  broadcastInDim_apply _ bcast_S64x1x512_S64x512x512_0_1_2 v (ix3 n i j) (ix3 n (0 : Fin 1) j) (fun a => match a with
    | ⟨0, _⟩ => by show n.val = if (64 : Nat) = 1 then 0 else n.val; rw [if_neg (by decide)]
    | ⟨1, _⟩ => by show 0 = if (1 : Nat) = 1 then 0 else i.val; rw [if_pos rfl]
    | ⟨2, _⟩ => by show j.val = if (512 : Nat) = 1 then 0 else j.val; rw [if_neg (by decide)])

theorem asRow_apply (v : S64x512.Idx → α) (n : Fin 64) (u : Fin 1) (j : Fin 512) :
    broadcastInDim S64x1x512 ![0, 2] bcast_S64x512_S64x1x512_0_2 v (ix3 n u j) = v (ix2 n j) :=
  broadcastInDim_apply _ bcast_S64x512_S64x1x512_0_2 v (ix3 n u j) (ix2 n j) (fun a => match a with
    | ⟨0, _⟩ => by show n.val = if (64 : Nat) = 1 then 0 else n.val; rw [if_neg (by decide)]
    | ⟨1, _⟩ => by show j.val = if (512 : Nat) = 1 then 0 else j.val; rw [if_neg (by decide)])

theorem splat3_apply (s : S_.Idx → α) (y : S64x512x512.Idx) :
    broadcastInDim S64x512x512 ![] bcast_S_S64x512x512 s y = s (fun a => a.elim0) :=
  broadcastInDim_apply _ bcast_S_S64x512x512 s y (fun a => a.elim0) (fun a => a.elim0)

theorem splat2_apply (s : S_.Idx → α) (y : S64x512.Idx) :
    broadcastInDim S64x512 ![] bcast_S_S64x512 s y = s (fun a => a.elim0) :=
  broadcastInDim_apply _ bcast_S_S64x512 s y (fun a => a.elim0) (fun a => a.elim0)

theorem rowKeep_apply (v : FVec Ideal S64x512 .f32) (n : Fin 64) (i j : Fin 512) : rowKeep (F := Ideal) v (ix3 n i j) = v (ix2 n i) := by
  unfold rowKeep; rw [spreadCols_apply, asCol_apply]

theorem colKeep_apply (v : FVec Ideal S64x512 .f32) (n : Fin 64) (i j : Fin 512) : colKeep (F := Ideal) v (ix3 n i j) = v (ix2 n j) := by
  unfold colKeep; rw [spreadRows_apply, asRow_apply]

theorem lowest_apply (y : S64x512.Idx) : lowest (F := Ideal) y = floor := by
  unfold lowest; rw [splat2_apply]; rfl

/-! ### The three batched products' operand indices -/

abbrev dotE := dot_S64x512x768_S64x512x768_S64x512x512_2_2_1_1_0_0
abbrev dotA := dot_S64x512x512_S64x512x768_S64x512x768_2_1_1_2_0_0
abbrev dotB := dot_S64x512x512_S64x512x768_S64x512x768_1_1_2_2_0_0

theorem dotE_lhs0 (y : S64x512x512.Idx) (q : dotE.contr.Idx) : (dotE.lhsIdx y q 0).val = (y 0).val := by
  unfold DotDims.lhsIdx
  rw [dif_pos (show (0 : Fin S64x512x768.rank) ∈ dotE.lhsBatch by decide)]
  rfl

theorem dotE_lhs1 (y : S64x512x512.Idx) (q : dotE.contr.Idx) : (dotE.lhsIdx y q 1).val = (y 1).val := by
  unfold DotDims.lhsIdx
  rw [dif_neg (show ¬(1 : Fin S64x512x768.rank) ∈ dotE.lhsBatch by decide), dif_pos (show (1 : Fin S64x512x768.rank) ∈ dotE.lhsNonContracting by decide)]
  rfl

theorem dotE_rhs0 (y : S64x512x512.Idx) (q : dotE.contr.Idx) : (dotE.rhsIdx y q 0).val = (y 0).val := by
  unfold DotDims.rhsIdx
  rw [dif_pos (show (0 : Fin S64x512x768.rank) ∈ dotE.rhsBatch by decide)]
  rfl

theorem dotE_rhs1 (y : S64x512x512.Idx) (q : dotE.contr.Idx) : (dotE.rhsIdx y q 1).val = (y 2).val := by
  unfold DotDims.rhsIdx
  rw [dif_neg (show ¬(1 : Fin S64x512x768.rank) ∈ dotE.rhsBatch by decide), dif_pos (show (1 : Fin S64x512x768.rank) ∈ dotE.rhsNonContracting by decide)]
  rfl

theorem dotE_lhs (n : Fin 64) (i j : Fin 512) (k : Fin 768) :
    dotE.lhsIdx (ix3 n i j) ((contrEquiv1 dotE 768 rfl rfl).symm k) = ix3 n i k := by
  funext a; apply Fin.ext
  match a with
  | ⟨0, _⟩ => exact dotE_lhs0 _ _
  | ⟨1, _⟩ => exact dotE_lhs1 _ _
  | ⟨2, _⟩ => exact (dotE.lhsIdx_val_of_single rfl _ _).trans (contrEquiv1_symm_val dotE 768 rfl rfl k)
theorem dotE_rhs (n : Fin 64) (i j : Fin 512) (k : Fin 768) :
    dotE.rhsIdx (ix3 n i j) ((contrEquiv1 dotE 768 rfl rfl).symm k) = ix3 n j k := by
  funext a; apply Fin.ext
  match a with
  | ⟨0, _⟩ => exact dotE_rhs0 _ _
  | ⟨1, _⟩ => exact dotE_rhs1 _ _
  | ⟨2, _⟩ => exact (dotE.rhsIdx_val_of_single rfl _ _).trans (contrEquiv1_symm_val dotE 768 rfl rfl k)

theorem dotA_lhs0 (y : S64x512x768.Idx) (q : dotA.contr.Idx) : (dotA.lhsIdx y q 0).val = (y 0).val := by
  unfold DotDims.lhsIdx
  rw [dif_pos (show (0 : Fin S64x512x512.rank) ∈ dotA.lhsBatch by decide)]
  rfl

theorem dotA_lhs1 (y : S64x512x768.Idx) (q : dotA.contr.Idx) : (dotA.lhsIdx y q 1).val = (y 1).val := by
  unfold DotDims.lhsIdx
  rw [dif_neg (show ¬(1 : Fin S64x512x512.rank) ∈ dotA.lhsBatch by decide), dif_pos (show (1 : Fin S64x512x512.rank) ∈ dotA.lhsNonContracting by decide)]
  rfl

theorem dotA_rhs0 (y : S64x512x768.Idx) (q : dotA.contr.Idx) : (dotA.rhsIdx y q 0).val = (y 0).val := by
  unfold DotDims.rhsIdx
  rw [dif_pos (show (0 : Fin S64x512x768.rank) ∈ dotA.rhsBatch by decide)]
  rfl

theorem dotA_rhs2 (y : S64x512x768.Idx) (q : dotA.contr.Idx) : (dotA.rhsIdx y q 2).val = (y 2).val := by
  unfold DotDims.rhsIdx
  rw [dif_neg (show ¬(2 : Fin S64x512x768.rank) ∈ dotA.rhsBatch by decide), dif_pos (show (2 : Fin S64x512x768.rank) ∈ dotA.rhsNonContracting by decide)]
  rfl

theorem dotA_lhs (n : Fin 64) (i : Fin 512) (d : Fin 768) (k : Fin 512) :
    dotA.lhsIdx (ix3 n i d) ((contrEquiv1 dotA 512 rfl rfl).symm k) = ix3 n i k := by
  funext a; apply Fin.ext
  match a with
  | ⟨0, _⟩ => exact dotA_lhs0 _ _
  | ⟨1, _⟩ => exact dotA_lhs1 _ _
  | ⟨2, _⟩ => exact (dotA.lhsIdx_val_of_single rfl _ _).trans (contrEquiv1_symm_val dotA 512 rfl rfl k)
theorem dotA_rhs (n : Fin 64) (i : Fin 512) (d : Fin 768) (k : Fin 512) :
    dotA.rhsIdx (ix3 n i d) ((contrEquiv1 dotA 512 rfl rfl).symm k) = ix3 n k d := by
  funext a; apply Fin.ext
  match a with
  | ⟨0, _⟩ => exact dotA_rhs0 _ _
  | ⟨1, _⟩ => exact (dotA.rhsIdx_val_of_single rfl _ _).trans (contrEquiv1_symm_val dotA 512 rfl rfl k)
  | ⟨2, _⟩ => exact dotA_rhs2 _ _

theorem dotB_lhs0 (y : S64x512x768.Idx) (q : dotB.contr.Idx) : (dotB.lhsIdx y q 0).val = (y 0).val := by
  unfold DotDims.lhsIdx
  rw [dif_pos (show (0 : Fin S64x512x512.rank) ∈ dotB.lhsBatch by decide)]
  rfl

theorem dotB_lhs2 (y : S64x512x768.Idx) (q : dotB.contr.Idx) : (dotB.lhsIdx y q 2).val = (y 1).val := by
  unfold DotDims.lhsIdx
  rw [dif_neg (show ¬(2 : Fin S64x512x512.rank) ∈ dotB.lhsBatch by decide), dif_pos (show (2 : Fin S64x512x512.rank) ∈ dotB.lhsNonContracting by decide)]
  rfl

theorem dotB_rhs0 (y : S64x512x768.Idx) (q : dotB.contr.Idx) : (dotB.rhsIdx y q 0).val = (y 0).val := by
  unfold DotDims.rhsIdx
  rw [dif_pos (show (0 : Fin S64x512x768.rank) ∈ dotB.rhsBatch by decide)]
  rfl

theorem dotB_rhs2 (y : S64x512x768.Idx) (q : dotB.contr.Idx) : (dotB.rhsIdx y q 2).val = (y 2).val := by
  unfold DotDims.rhsIdx
  rw [dif_neg (show ¬(2 : Fin S64x512x768.rank) ∈ dotB.rhsBatch by decide), dif_pos (show (2 : Fin S64x512x768.rank) ∈ dotB.rhsNonContracting by decide)]
  rfl

theorem dotB_lhs (n : Fin 64) (j : Fin 512) (d : Fin 768) (k : Fin 512) :
    dotB.lhsIdx (ix3 n j d) ((contrEquiv1 dotB 512 rfl rfl).symm k) = ix3 n k j := by
  funext a; apply Fin.ext
  match a with
  | ⟨0, _⟩ => exact dotB_lhs0 _ _
  | ⟨1, _⟩ => exact (dotB.lhsIdx_val_of_single rfl _ _).trans (contrEquiv1_symm_val dotB 512 rfl rfl k)
  | ⟨2, _⟩ => exact dotB_lhs2 _ _
theorem dotB_rhs (n : Fin 64) (j : Fin 512) (d : Fin 768) (k : Fin 512) :
    dotB.rhsIdx (ix3 n j d) ((contrEquiv1 dotB 512 rfl rfl).symm k) = ix3 n k d := by
  funext a; apply Fin.ext
  match a with
  | ⟨0, _⟩ => exact dotB_rhs0 _ _
  | ⟨1, _⟩ => exact (dotB.rhsIdx_val_of_single rfl _ _).trans (contrEquiv1_symm_val dotB 512 rfl rfl k)
  | ⟨2, _⟩ => exact dotB_rhs2 _ _

/-! ### The masked scores -/

theorem scoreT_apply (x0 x2 : FVec Ideal S64x512x768 .f32) (x1 x3 : IVec S64x512 32) (n : Fin 64) (i j : Fin 512) :
    scoreT (F := Ideal) x0 x2 x1 x3 (ix3 n i j) = score (rows x0 n) (rows x2 n) (maskRow x1 n) (maskRow x3 n) i j := by
  have hdot : Host.dotGeneral (F := Ideal) dotE none x0 x2 (ix3 n i j) = ∑ d : Fin 768, rows x0 n i d * rows x2 n j d := by
    refine (Ideal.dotGeneral_apply dotE none _ x0 x2 (ix3 n i j)).trans ?_
    rw [← Equiv.sum_comp (contrEquiv1 dotE 768 rfl rfl).symm]
    refine Finset.sum_congr rfl fun k _ => ?_
    rw [dotE_lhs, dotE_rhs]; rfl
  unfold scoreT score
  rw [select_apply, cmpf_apply, mulf_apply, spreadCols_apply, spreadRows_apply, sitofp_apply, sitofp_apply, asCol_apply, asRow_apply,
    splat3_apply, splat3_apply, hdot]
  rfl

/-! ### Weights along the rows and along the columns of a [64, 512, 512] array -/

theorem liftRow (n : Fin 64) (i k : Fin 512) :
    (by decide : S64x512x512.Reduces [2] S64x512).lift (ix2 n i) k = ix3 n i k := by
  funext a; apply Fin.ext
  match a with
  | ⟨0, _⟩ => rfl
  | ⟨1, _⟩ => rfl
  | ⟨2, _⟩ => rfl

theorem liftCol (n : Fin 64) (j k : Fin 512) :
    (by decide : S64x512x512.Reduces [1] S64x512).lift (ix2 n j) k = ix3 n k j := by
  funext a; apply Fin.ext
  match a with
  | ⟨0, _⟩ => rfl
  | ⟨1, _⟩ => rfl
  | ⟨2, _⟩ => rfl

/-- The larger of minus infinity and a fold of max from minus infinity is the fold. -/
theorem max_floor_fold (g : Fin 512 → EReal) :
    max floor ((Finset.univ : Finset (Fin 512)).fold max floor g) = (Finset.univ : Finset (Fin 512)).fold max floor g :=
  max_eq_right ((Finset.le_fold_max _).mpr (Or.inl le_rfl))

section
variable (e : FVec Ideal S64x512x512 .f32) (f : Fin 64 → Fin 512 → Fin 512 → EReal) (he : ∀ n i j, e (ix3 n i j) = f n i j)
include he

theorem rowTopT_apply (n : Fin 64) (i : Fin 512) :
    rowTopT (F := Ideal) e (ix2 n i) = (Finset.univ : Finset (Fin 512)).fold max floor (fun j => f n i j) := by
  unfold rowTopT
  rw [maximumf_apply, lowest_apply, Host.reduce_eq_fold_single _ _ _ _ (by decide : S64x512x512.Reduces [2] S64x512) _ _]
  refine Eq.trans (congrArg (max floor) ?_) (max_floor_fold _)
  exact Finset.fold_congr fun j _ => (congrArg e (liftRow n i j)).trans (he n i j)

theorem colTopT_apply (n : Fin 64) (j : Fin 512) :
    colTopT (F := Ideal) e (ix2 n j) = (Finset.univ : Finset (Fin 512)).fold max floor (fun i => f n i j) := by
  unfold colTopT
  rw [maximumf_apply, lowest_apply, Host.reduce_eq_fold_single _ _ _ _ (by decide : S64x512x512.Reduces [1] S64x512) _ _]
  refine Eq.trans (congrArg (max floor) ?_) (max_floor_fold _)
  exact Finset.fold_congr fun i _ => (congrArg e (liftCol n j i)).trans (he n i j)

theorem rowSumT_apply (n : Fin 64) (i : Fin 512) : rowSumT (F := Ideal) e (ix2 n i) = ∑ j : Fin 512, f n i j := by
  unfold rowSumT
  refine (Ideal.hostReduceAdd_single reducesTo_S64x512x512_S64x512_d2 (by decide : S64x512x512.Reduces [2] S64x512) e _ (ix2 n i)).trans ?_
  rw [show constant (F := Ideal) S_ .f32 0x00000000#32 (Shape.Idx.first h_S_) = 0 from Ideal.ofBits_zero_f32, zero_add]
  exact Finset.sum_congr rfl fun j _ => (congrArg e (liftRow n i j)).trans (he n i j)

theorem colSumT_apply (n : Fin 64) (j : Fin 512) : colSumT (F := Ideal) e (ix2 n j) = ∑ i : Fin 512, f n i j := by
  unfold colSumT
  refine (Ideal.hostReduceAdd_single reducesTo_S64x512x512_S64x512_d1 (by decide : S64x512x512.Reduces [1] S64x512) e _ (ix2 n j)).trans ?_
  rw [show constant (F := Ideal) S_ .f32 0x00000000#32 (Shape.Idx.first h_S_) = 0 from Ideal.ofBits_zero_f32, zero_add]
  exact Finset.sum_congr rfl fun i _ => (congrArg e (liftCol n j i)).trans (he n i j)

theorem rowExpT_apply (n : Fin 64) (i j : Fin 512) :
    rowExpT (F := Ideal) e (ix3 n i j) = Ideal.exp (f n i j - (Finset.univ : Finset (Fin 512)).fold max floor (fun j' => f n i j')) := by
  unfold rowExpT
  show Ideal.exp (e (ix3 n i j) - rowKeep (F := Ideal) (rowTopT (F := Ideal) e) (ix3 n i j)) = _
  rw [rowKeep_apply, rowTopT_apply e f he, he]

theorem colExpT_apply (n : Fin 64) (i j : Fin 512) :
    colExpT (F := Ideal) e (ix3 n i j) = Ideal.exp (f n i j - (Finset.univ : Finset (Fin 512)).fold max floor (fun i' => f n i' j)) := by
  unfold colExpT
  show Ideal.exp (e (ix3 n i j) - colKeep (F := Ideal) (colTopT (F := Ideal) e) (ix3 n i j)) = _
  rw [colKeep_apply, colTopT_apply e f he, he]

end

/-! ### The two contexts -/

section
variable (x0 x2 : FVec Ideal S64x512x768 .f32) (x1 x3 : IVec S64x512 32)

theorem ctxAT_apply (n : Fin 64) (i : Fin 512) (d : Fin 768) :
    ctxAT (F := Ideal) (scoreT (F := Ideal) x0 x2 x1 x3) x2 (ix3 n i d) = ctxA (rows x0 n) (rows x2 n) (maskRow x1 n) (maskRow x3 n) i d := by
  unfold ctxAT
  refine (Ideal.dotGeneral_apply dotA none _ _ x2 (ix3 n i d)).trans ?_
  rw [← Equiv.sum_comp (contrEquiv1 dotA 512 rfl rfl).symm]
  unfold ctxA
  refine Finset.sum_congr rfl fun j _ => ?_
  rw [dotA_lhs, dotA_rhs]
  refine congrArg (· * x2 (ix3 n j d)) ?_
  unfold rowWeightsT
  show Ideal.div (rowExpT (F := Ideal) (scoreT (F := Ideal) x0 x2 x1 x3) (ix3 n i j))
    (rowKeep (F := Ideal) (rowSumT (F := Ideal) (rowExpT (F := Ideal) (scoreT (F := Ideal) x0 x2 x1 x3))) (ix3 n i j)) = _
  rw [rowKeep_apply,
    rowSumT_apply (rowExpT (F := Ideal) (scoreT (F := Ideal) x0 x2 x1 x3)) _
      (fun n i j => rowExpT_apply (scoreT (F := Ideal) x0 x2 x1 x3) _ (fun n i j => scoreT_apply x0 x2 x1 x3 n i j) n i j),
    rowExpT_apply (scoreT (F := Ideal) x0 x2 x1 x3) _ (fun n i j => scoreT_apply x0 x2 x1 x3 n i j)]
  rfl

theorem ctxBT_apply (n : Fin 64) (j : Fin 512) (d : Fin 768) :
    ctxBT (F := Ideal) (scoreT (F := Ideal) x0 x2 x1 x3) x0 (ix3 n j d) = ctxB (rows x0 n) (rows x2 n) (maskRow x1 n) (maskRow x3 n) j d := by
  unfold ctxBT
  refine (Ideal.dotGeneral_apply dotB none _ _ x0 (ix3 n j d)).trans ?_
  rw [← Equiv.sum_comp (contrEquiv1 dotB 512 rfl rfl).symm]
  unfold ctxB
  refine Finset.sum_congr rfl fun i _ => ?_
  rw [dotB_lhs, dotB_rhs]
  refine congrArg (· * x0 (ix3 n i d)) ?_
  unfold colWeightsT
  show Ideal.div (colExpT (F := Ideal) (scoreT (F := Ideal) x0 x2 x1 x3) (ix3 n i j))
    (colKeep (F := Ideal) (colSumT (F := Ideal) (colExpT (F := Ideal) (scoreT (F := Ideal) x0 x2 x1 x3))) (ix3 n i j)) = _
  rw [colKeep_apply,
    colSumT_apply (colExpT (F := Ideal) (scoreT (F := Ideal) x0 x2 x1 x3)) _
      (fun n i j => colExpT_apply (scoreT (F := Ideal) x0 x2 x1 x3) _ (fun n i j => scoreT_apply x0 x2 x1 x3 n i j) n i j),
    colExpT_apply (scoreT (F := Ideal) x0 x2 x1 x3) _ (fun n i j => scoreT_apply x0 x2 x1 x3 n i j)]
  rfl

end

/-! ### Four arrays side by side along the features -/

theorem besideT_apply (x t : FVec Ideal S64x512x768 .f32) (n : Fin 64) (i : Fin 512) (c : Fin 3072) :
    besideT (F := Ideal) x t (ix3 n i c) = enhance (rows x n) (rows t n) i c := by
  have hc := c.isLt
  unfold besideT
  have offAxis : ∀ (d : Fin 768) (b : Fin S64x512x768.rank), b.cast (rfl : S64x512x768.rank = S64x512x3072.rank) ≠ (2 : Fin 3) →
      ((ix3 n i d : S64x512x768.Idx) b).val = ((ix3 n i c : S64x512x3072.Idx) (b.cast rfl)).val := fun d b hb =>
    match b, hb with
    | ⟨0, _⟩, _ => rfl
    | ⟨1, _⟩, _ => rfl
    | ⟨2, _⟩, hb => absurd rfl hb
  by_cases h0 : c.val < 768
  · refine (concatenate_apply_piece (t := S64x512x3072) (2 : Fin 3) ([⟨S64x512x768, x⟩, ⟨S64x512x768, t⟩, ⟨S64x512x768, subf (F := Ideal) x t⟩, ⟨S64x512x768, mulf (F := Ideal) x t⟩] : List ((s : Shape) × (s.Idx → EReal))) concatenates_S64x512x768_S64x512x768_S64x512x768_S64x512x768_S64x512x3072_d2 (ix3 n i c) 0 (by show 0 < 4; omega) S64x512x768 x rfl rfl 0 rfl
      (ix3 n i ⟨c.val, h0⟩) (offAxis _) (by show 0 + c.val = c.val; omega)).trans ?_
    exact (enhance_block0 (rows x n) (rows t n) i i ⟨c.val, h0⟩ c (by omega) (by show c.val = 0 + 1 * c.val; omega)).symm
  by_cases h1 : c.val < 1536
  · refine (concatenate_apply_piece (t := S64x512x3072) (2 : Fin 3) ([⟨S64x512x768, x⟩, ⟨S64x512x768, t⟩, ⟨S64x512x768, subf (F := Ideal) x t⟩, ⟨S64x512x768, mulf (F := Ideal) x t⟩] : List ((s : Shape) × (s.Idx → EReal))) concatenates_S64x512x768_S64x512x768_S64x512x768_S64x512x768_S64x512x3072_d2 (ix3 n i c) 1 (by show 1 < 4; omega) S64x512x768 t rfl rfl 768 rfl
      (ix3 n i ⟨c.val - 768, by omega⟩) (offAxis _) (by show 768 + (c.val - 768) = c.val; omega)).trans ?_
    exact (enhance_block1 (rows x n) (rows t n) i i ⟨c.val - 768, by omega⟩ c (by omega) (by show c.val = 768 + 1 * (c.val - 768); omega)).symm
  by_cases h2 : c.val < 2304
  · refine (concatenate_apply_piece (t := S64x512x3072) (2 : Fin 3) ([⟨S64x512x768, x⟩, ⟨S64x512x768, t⟩, ⟨S64x512x768, subf (F := Ideal) x t⟩, ⟨S64x512x768, mulf (F := Ideal) x t⟩] : List ((s : Shape) × (s.Idx → EReal))) concatenates_S64x512x768_S64x512x768_S64x512x768_S64x512x768_S64x512x3072_d2 (ix3 n i c) 2 (by show 2 < 4; omega) S64x512x768 (subf x t) rfl rfl 1536 rfl
      (ix3 n i ⟨c.val - 1536, by omega⟩) (offAxis _) (by show 1536 + (c.val - 1536) = c.val; omega)).trans ?_
    exact (enhance_block2 (rows x n) (rows t n) i i ⟨c.val - 1536, by omega⟩ c (by omega) (by show c.val = 1536 + 1 * (c.val - 1536); omega)).symm
  · refine (concatenate_apply_piece (t := S64x512x3072) (2 : Fin 3) ([⟨S64x512x768, x⟩, ⟨S64x512x768, t⟩, ⟨S64x512x768, subf (F := Ideal) x t⟩, ⟨S64x512x768, mulf (F := Ideal) x t⟩] : List ((s : Shape) × (s.Idx → EReal))) concatenates_S64x512x768_S64x512x768_S64x512x768_S64x512x768_S64x512x3072_d2 (ix3 n i c) 3 (by show 3 < 4; omega) S64x512x768 (mulf x t) rfl rfl 2304 rfl
      (ix3 n i ⟨c.val - 2304, by omega⟩) (offAxis _) (by show 2304 + (c.val - 2304) = c.val; omega)).trans ?_
    exact (enhance_block3 (rows x n) (rows t n) i i ⟨c.val - 2304, by omega⟩ c (by omega) (by show c.val = 2304 + 1 * (c.val - 2304); omega)).symm

/-! ### The two results -/

theorem resultA_eq (x0 x2 : FVec Ideal S64x512x768 .f32) (x1 x3 : IVec S64x512 32) :
    besideT (F := Ideal) x0 (ctxAT (F := Ideal) (scoreT (F := Ideal) x0 x2 x1 x3) x2) = resultA x0 x2 x1 x3 := by
  funext y
  obtain ⟨n, i, c, rfl⟩ : ∃ (n : Fin 64) (i : Fin 512) (c : Fin 3072), y = ix3 n i c := ⟨y 0, y 1, y 2, eq_ix3 y⟩
  rw [besideT_apply]
  unfold resultA outA
  refine congrArg (fun T => enhance (rows x0 n) T i c) ?_
  funext i' d
  exact ctxAT_apply x0 x2 x1 x3 n i' d

theorem resultB_eq (x0 x2 : FVec Ideal S64x512x768 .f32) (x1 x3 : IVec S64x512 32) :
    besideT (F := Ideal) x2 (ctxBT (F := Ideal) (scoreT (F := Ideal) x0 x2 x1 x3) x0) = resultB x0 x2 x1 x3 := by
  funext y
  obtain ⟨n, i, c, rfl⟩ : ∃ (n : Fin 64) (i : Fin 512) (c : Fin 3072), y = ix3 n i c := ⟨y 0, y 1, y 2, eq_ix3 y⟩
  rw [besideT_apply]
  unfold resultB outB
  refine congrArg (fun T => enhance (rows x2 n) T i c) ?_
  funext j d
  exact ctxBT_apply x0 x2 x1 x3 n j d

end Cert.ReferenceIdeal.AtIndex

end
-- ==== Proof.lean ====
/-
  Soft alignment of two batches of sequences: a fused kernel against its jnp reference, on the extended reals.

  Both programs take two arrays a, b : [64, 512, 768] and two integer masks [64, 512]. For each batch element they
  form the 512 × 512 matrix of inner products of a's rows with b's rows, replace an entry by -100000 where the product
  of the two masks is below 1/2, and normalise it twice — along each row and along each column — by the exponential of
  the entry minus the largest entry over the sum of those exponentials. The row weights average b's rows (a's context),
  the column weights average a's rows (b's context), and each result sets a sequence beside its context, their
  difference and their product: [64, 512, 3072].

  The kernel does one batch element per grid point, with the products on the matrix unit in bf16 and the reductions on
  the lanes; the reference uses batched products and host reductions. At the exact values narrowing to bf16 is the
  identity, a product into a zero accumulator is the plain sum, the two kinds of reduction are the same fold and the
  same sum, and the reference's extra "larger of minus infinity and the maximum" changes nothing: both programs compute
  ONE function of the arguments (Proof/Spec.lean), index by index, with no use of the inputs' finiteness.
  The kernel's side is Proof/KernelScore, KernelSoft, KernelCtx, KernelBlock (one grid point) and KernelWhole (the 64
  blocks cover the arrays); the reference's side is Proof/RefRun (its 51 operations run) and RefRead (read at an index).
-/
import proofs.«137245_j2740189134870_2_alg».proof.Defs
import proofs.«137245_j2740189134870_2_alg».proof.Proof.Gen.Kernel
import proofs.«137245_j2740189134870_2_alg».proof.Proof.Gen.Kernel.Skeleton
import proofs.«137245_j2740189134870_2_alg».proof.Proof.Gen.Kernel.Launch
import proofs.«137245_j2740189134870_2_alg».proof.Proof.Gen.Kernel.Points
import proofs.«137245_j2740189134870_2_alg».proof.Proof.Gen.Kernel.Frame
import proofs.«137245_j2740189134870_2_alg».proof.Proof.Gen.KernelIdeal
import proofs.«137245_j2740189134870_2_alg».proof.Proof.Gen.KernelIdeal.Skeleton
import proofs.«137245_j2740189134870_2_alg».proof.Proof.Gen.KernelIdeal.Launch
import proofs.«137245_j2740189134870_2_alg».proof.Proof.Gen.KernelIdeal.Points
import proofs.«137245_j2740189134870_2_alg».proof.Proof.Gen.KernelIdeal.Frame
import proofs.«137245_j2740189134870_2_alg».proof.Proof.Gen.ReferenceIdeal
import proofs.«137245_j2740189134870_2_alg».proof.Proof.Gen.Pre_finite_inputs
import proofs.«137245_j2740189134870_2_alg».proof.Proof.Gen.KernelIdeal.Value
import proofs.«137245_j2740189134870_2_alg».proof.Proof.KernelWhole
import proofs.«137245_j2740189134870_2_alg».proof.Proof.RefRead
import Idealize.ShloMosaic.Adequacy
import Idealize.ShloMosaic.Init

noncomputable section

namespace Cert.Proof

open Idealize.ShloMosaic Idealize.ShloMosaic.TcCoe Idealize.SL.Sem

/-! ## The frames: each program runs, faults nowhere and leaves its arguments as they were -/

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped: no operation writes an argument. -/
theorem frame_referenceIdeal : Cert.frame_ReferenceIdeal := fun m ρ _ =>
  (θ_run Cert.ReferenceIdeal.defs _ _).mono
    (fun _ h c => ⟨(h c Cert.ReferenceIdeal.main_arg0).trans (Cert.ReferenceIdeal.Line.arg0_after _),
      (h c Cert.ReferenceIdeal.main_arg1).trans (Cert.ReferenceIdeal.Line.arg1_after _),
      (h c Cert.ReferenceIdeal.main_arg2).trans (Cert.ReferenceIdeal.Line.arg2_after _),
      (h c Cert.ReferenceIdeal.main_arg3).trans (Cert.ReferenceIdeal.Line.arg3_after _)⟩)
    (Cert.ReferenceIdeal.Line.run_after (F := Ideal) m ρ)

/-- The idealization rewrote nothing: the idealized kernel is the kernel's own text read at the exact values. -/
theorem preserves : Cert.preserves_Kernel_KernelIdeal := trivial

/-! ## The two programs compute one function -/

/-- From memories that agree on the arguments both programs end with each result array at the soft alignment of the
    arguments: the kernel by its 64 blocks (Proof/KernelWhole.lean), the reference by its five stretches read at an index
    (Proof/RefRead.lean). -/
theorem algebraic : Cert.algebraic_KernelIdeal_ReferenceIdeal := by
  intro m ρ m' ρ' _ hagree
  refine ⟨fun c => Cert.KernelIdeal.Whole.GA m c, fun c => Cert.KernelIdeal.Whole.GB m c, Cert.KernelIdeal.Whole.run m ρ, ?_⟩
  refine (θ_run Cert.ReferenceIdeal.defs _ _).mono (fun _ h c => ⟨?_, ?_,
      (h c Cert.ReferenceIdeal.main_arg0).trans (Cert.ReferenceIdeal.Line.arg0_after _),
      (h c Cert.ReferenceIdeal.main_arg1).trans (Cert.ReferenceIdeal.Line.arg1_after _),
      (h c Cert.ReferenceIdeal.main_arg2).trans (Cert.ReferenceIdeal.Line.arg2_after _),
      (h c Cert.ReferenceIdeal.main_arg3).trans (Cert.ReferenceIdeal.Line.arg3_after _)⟩)
    (Cert.ReferenceIdeal.Line.run_after (F := Ideal) m' ρ')
  · refine (h c Cert.ReferenceIdeal.main_v37).trans ?_
    rw [Cert.ReferenceIdeal.Line.resultA_after, Cert.ReferenceIdeal.AtIndex.resultA_eq]
    show Cert.SoftAlign.resultA (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg3)) = _
    rw [(hagree c).1, (hagree c).2.1, (hagree c).2.2.1, (hagree c).2.2.2]
  · refine (h c Cert.ReferenceIdeal.main_v40).trans ?_
    rw [Cert.ReferenceIdeal.Line.resultB_after, Cert.ReferenceIdeal.AtIndex.resultB_eq]
    show Cert.SoftAlign.resultB (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg3)) = _
    rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
